-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S8192x128 .f32) (main_arg1 : FVec F S8192x8192 .f32) (main_arg2 : FVec F S128x64 .f32) (main_arg3 : FVec F S64 .f32) (main_arg4 : FVec F S64x16 .f32) (main_arg5 : FVec F S16 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S1x16 : Shape := ⟨2, ![1, 16]⟩
abbrev S8192x16 : Shape := ⟨2, ![8192, 16]⟩
abbrev S512x8192 : Shape := ⟨2, ![512, 8192]⟩
abbrev S512x16 : Shape := ⟨2, ![512, 16]⟩
abbrev S8192x64 : Shape := ⟨2, ![8192, 64]⟩
abbrev S512x64 : Shape := ⟨2, ![512, 64]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x64, .f32⟩
  | .hbm, ⟨7, _⟩ => ⟨S1x16, .f32⟩
  | .hbm, ⟨8, _⟩ => ⟨S8192x8192, .bf16⟩
  | .hbm, ⟨9, _⟩ => ⟨S8192x16, .f32⟩
  | .hbm, ⟨10, _⟩ => ⟨S8192x16, .f32⟩
  | .local _ .vmem, ⟨0, _⟩ => ⟨S8192x128, .f32⟩
  | .local _ .vmem, ⟨1, _⟩ => ⟨S512x8192, .f32⟩
  | .local _ .vmem, ⟨2, _⟩ => ⟨S512x8192, .f32⟩
  | .local _ .vmem, ⟨3, _⟩ => ⟨S128x64, .f32⟩
  | .local _ .vmem, ⟨4, _⟩ => ⟨S1x64, .f32⟩
  | .local _ .vmem, ⟨5, _⟩ => ⟨S64x16, .f32⟩
  | .local _ .vmem, ⟨6, _⟩ => ⟨S512x8192, .bf16⟩
  | .local _ .vmem, ⟨7, _⟩ => ⟨S512x8192, .bf16⟩
  | .local _ .vmem, ⟨8, _⟩ => ⟨S512x16, .f32⟩
  | .local _ .vmem, ⟨9, _⟩ => ⟨S512x16, .f32⟩
  | .local _ .vmem, ⟨10, _⟩ => ⟨S8192x64, .f32⟩
  | .local _ .vmem, ⟨11, _⟩ => ⟨S512x8192, .bf16⟩
  | .local _ .vmem, ⟨12, _⟩ => ⟨S512x8192, .bf16⟩
  | .local _ .vmem, ⟨13, _⟩ => ⟨S8192x16, .f32⟩
  | .local _ .vmem, ⟨14, _⟩ => ⟨S1x16, .f32⟩
  | .local _ .vmem, ⟨15, _⟩ => ⟨S512x16, .f32⟩
  | .local _ .vmem, ⟨16, _⟩ => ⟨S512x16, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64_S1x64 : S64.ShapeCasts S1x64
  shapeCasts_S16_S1x16 : S16.ShapeCasts S1x16
  inb_S8192x128_S8192x128_0_0 : ∀ a, (![0, 0] : Fin 2 → Nat) a + S8192x128.size a ≤ S8192x128.size a
  h_S8192x128 : 0 < S8192x128.numel
  inb_S128x64_S128x64_0_0 : ∀ a, (![0, 0] : Fin 2 → Nat) a + S128x64.size a ≤ S128x64.size a
  h_S128x64 : 0 < S128x64.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S512x8192_S512x8192_0_0 : ∀ a, (![0, 0] : Fin 2 → Nat) a + S512x8192.size a ≤ S512x8192.size a
  h_S512x8192 : 0 < S512x8192.numel
  bitsLt_bf16_f32 : FTy.bits .bf16 < FTy.bits .f32
  packedbf16_S512x8192_S512x8192_0_0 : (Rect.unit (s := S512x8192) ![0, 0] S512x8192.size inb_S512x8192_S512x8192_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x16_S64x16_0_0 : ∀ a, (![0, 0] : Fin 2 → Nat) a + S64x16.size a ≤ S64x16.size a
  h_S64x16 : 0 < S64x16.numel
  inb_S512x16_S512x16_0_0 : ∀ a, (![0, 0] : Fin 2 → Nat) a + S512x16.size a ≤ S512x16.size a
  h_S512x16 : 0 < S512x16.numel
  shapeCasts_S512x8192_S512x8192 : S512x8192.ShapeCasts S512x8192
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  reduces_S512x16_S512 : S512x16.Reduces [1] S512
  shapeCasts_S512_S512x1 : S512.ShapeCasts S512x1
  broadcasts_S512x1_S512x16 : S512x1.Broadcasts S512x16
  dot_S8192x128_S128x64_S8192x64_1_0_0_1_n_n_wf : DotDims.WF S8192x128 S128x64 S8192x64 [1] [0] [0] [1] [] []
  dot_S512x8192_S8192x64_S512x64_1_0_0_1_n_n_wf : DotDims.WF S512x8192 S8192x64 S512x64 [1] [0] [0] [1] [] []
  dot_S512x64_S64x16_S512x16_1_0_0_1_n_n_wf : DotDims.WF S512x64 S64x16 S512x16 [1] [0] [0] [1] [] []
  dot_S512x8192_S8192x16_S512x16_1_0_0_1_n_n_wf : DotDims.WF S512x8192 S8192x16 S512x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8192.size a ≤ S8192x8192.size a
  hwx0_1 : ∀ i : grid0.Coords, EltTy.bits .f32 = 32 ∨ (Rect.block (s := S8192x8192) S512x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x8192.size a ≤ S8192x8192.size a
  hwx0_5 : ∀ i : grid0.Coords, EltTy.bits .bf16 = 32 ∨ (Rect.block (s := S8192x8192) S512x8192.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x16.size a ≤ S8192x16.size a
  hwx0_6 : ∀ i : grid0.Coords, EltTy.bits .f32 = 32 ∨ (Rect.block (s := S8192x16) S512x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .bf16 = 32 ∨ (Rect.block (s := S8192x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x16.size a ≤ S8192x16.size a
  hwx1_1 : ∀ i : grid1.Coords, EltTy.bits .f32 = 32 ∨ (Rect.block (s := S8192x16) S8192x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x16.size a ≤ S8192x16.size a
  hwx1_3 : ∀ i : grid1.Coords, EltTy.bits .f32 = 32 ∨ (Rect.block (s := S8192x16) S512x16.size (cc1_transform_3 i) (hinb1_3 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S512x8192_S8192x16_S512x16_1_0_0_1_n_n : DotDims S512x8192 S8192x16 S512x16 where
  lhsContracting := [1]
  rhsContracting := [0]
  lhsNonContracting := [0]
  rhsNonContracting := [1]
  lhsBatch := []
  rhsBatch := []
  wf := dot_S512x8192_S8192x16_S512x16_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S512x8192.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S512x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S8192x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x16 : Shape := ⟨2, ![64, 16]⟩
abbrev S16 : Shape := ⟨1, ![16]⟩
abbrev S8192x64 : Shape := ⟨2, ![8192, 64]⟩
abbrev S1x64 : Shape := ⟨2, ![1, 64]⟩
abbrev S_ : Shape := ⟨0, ![]⟩
abbrev S8192x16 : Shape := ⟨2, ![8192, 16]⟩
abbrev S1x16 : Shape := ⟨2, ![1, 16]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S8192x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S8192x64, .f32⟩
  | .hbm, ⟨13, _⟩ => ⟨S8192x64, .i1⟩
  | .hbm, ⟨14, _⟩ => ⟨S_, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x16, .f32⟩
  | .hbm, ⟨19, _⟩ => ⟨S8192x16, .f32⟩
  | .hbm, ⟨20, _⟩ => ⟨S1x16, .f32⟩
  | .hbm, ⟨21, _⟩ => ⟨S8192x16, .f32⟩
  | .hbm, ⟨22, _⟩ => ⟨S8192x16, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1, .f32⟩
  | .hbm, ⟨36, _⟩ => ⟨S8192x16, .f32⟩
  | .hbm, ⟨37, _⟩ => ⟨S8192x16, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_cst : Ref sig .tc := ⟨.hbm, 23, rfl⟩
abbrev main_call1_v0 : Ref sig .tc := ⟨.hbm, 24, rfl⟩
abbrev main_call1_cst_0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_cst_1 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_v15 : Ref sig .tc := ⟨.hbm, 37, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x16_S8192x16_1_0_0_1_n_n_wf : DotDims.WF S8192x64 S64x16 S8192x16 [1] [0] [0] [1] [] []
  dot_S8192x8192_S8192x16_S8192x16_1_0_0_1_n_n_wf : DotDims.WF S8192x8192 S8192x16 S8192x16 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.BitsPass1Body.lean ====
/-
  The first pass of the two-layer graph convolution, as one region of the program. Its body keeps a scratch
  array between grid points: at the first point it computes the first-layer supports x·W1 (8192×64) once and
  stores them whole into the scratch; at every point t it copies rows 512·t … of the adjacency matrix into the
  first output block, and from those rows, the scratch, the bias row and W2 computes the 512×16 block of
  second-layer supports into the second output block. Every access is a whole-buffer rectangle.
  Here: the windows' blocks, the branch condition decided over the grid, and the body's run in its two cases —
  at a later point (the scratch an input at what the first point left) and at the first point (the scratch stored,
  then read back). Stated at any float instance F and at a parameter V, the buffer contents at the region's entry.
-/
import proofs.«126517_g27376121545431_cont_9to1_1572_14_alg».proof.Proof.Gen.Kernel.Launch
import proofs.«126517_g27376121545431_cont_9to1_1572_14_alg».proof.Proof.Gen.Kernel.Skeleton
import proofs.«126517_g27376121545431_cont_9to1_1572_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not. -/
theorem before_in0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's buffer holds its block at every point, fetched there or not. -/
theorem before_in1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's buffer holds its block at every point, fetched there or not. -/
theorem before_in2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's buffer holds its block at every point, fetched there or not. -/
theorem before_in3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's buffer holds its block at every point, fetched there or not. -/
theorem before_in4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each is the whole buffer -/

abbrev rX : Rect S8192x128 := Rect.unit (s := S8192x128) ![0, 0] S8192x128.size inb_S8192x128_S8192x128_0_0
abbrev rAdj : Rect S512x8192 := Rect.unit (s := S512x8192) ![0, 0] S512x8192.size inb_S512x8192_S512x8192_0_0
abbrev rW1 : Rect S128x64 := Rect.unit (s := S128x64) ![0, 0] S128x64.size inb_S128x64_S128x64_0_0
abbrev rB1 : Rect S1x64 := Rect.unit (s := S1x64) ![0, 0] S1x64.size inb_S1x64_S1x64_0_0
abbrev rW2 : Rect S64x16 := Rect.unit (s := S64x16) ![0, 0] S64x16.size inb_S64x16_S64x16_0_0
abbrev rSup : Rect S8192x64 := Rect.unit (s := S8192x64) ![0, 0] S8192x64.size inb_S8192x64_S8192x64_0_0
abbrev rOut : Rect S512x16 := Rect.unit (s := S512x16) ![0, 0] S512x16.size inb_S512x16_S512x16_0_0

/-! ## The branch: the supports are computed at the first point only -/

/-- The body's condition, from the grid coordinates. -/
abbrev isFirst (i : grid0.Coords) : Prop := (Scalar.cmpi .ne (Scalar.extui (Scalar.cmpi .eq (BitVec.ofNat 32 (i 0).val) 0#32)) 0#32) = 1#1
/-- It holds at point 0 and nowhere else — decided over the grid. -/
theorem isFirst_iff : ∀ t : Fin cfg0.N, isFirst (grid0.coords t) ↔ t.val = 0 :=
  (by decide +kernel : ∀ t : Fin grid0.N, isFirst (grid0.coords t) ↔ t.val = 0)

/-! ## What the body leaves -/

/-- The scratch after the first point: the first-layer supports x·W1, stored whole. -/
def supportAll (x : Vec F S8192x128 .f32) (w1 : Vec F S128x64 .f32) : Vec F S8192x64 .f32 :=
  View.canon [⟨rSup, k0_pay1 (View.ld x rX) (View.ld w1 rW1)⟩]

/-- The first output block: the adjacency rows, copied. -/
def copyBlock (a : Vec F S512x8192 .f32) : Vec F S512x8192 .bf16 :=
  View.canon [⟨rAdj, k0_pay2 (View.ld a rAdj)⟩]

/-- The second output block: the second-layer supports of these rows, from the scratch S, the bias row and W2. -/
def hiddenBlock (a : Vec F S512x8192 .f32) (S : Vec F S8192x64 .f32) (b : Vec F S1x64 .f32) (w2 : Vec F S64x16 .f32) : Vec F S512x16 .f32 :=
  View.canon [⟨rOut, k0_pay3 (View.ld a rAdj) (View.ld S rSup) (View.ld b rB1) (View.ld w2 rW2)⟩]

theorem cover_copy (p0 : Vec F S512x8192 .bf16) (y : S512x8192.Idx) :
    ∃ pc ∈ ([⟨rAdj, p0⟩] : List (View.Piece (Elt F) S512x8192 .bf16)), y ∈ pc.1.set :=
  View.cover_of_tiled [⟨rAdj, p0⟩] S512x8192.size (by rfl) y
theorem cover_hidden (p0 : Vec F S512x16 .f32) (y : S512x16.Idx) :
    ∃ pc ∈ ([⟨rOut, p0⟩] : List (View.Piece (Elt F) S512x16 .f32)), y ∈ pc.1.set :=
  View.cover_of_tiled [⟨rOut, p0⟩] S512x16.size (by rfl) y
theorem cover_support (p0 : Vec F S8192x64 .f32) (y : S8192x64.Idx) :
    ∃ pc ∈ ([⟨rSup, p0⟩] : List (View.Piece (Elt F) S8192x64 .f32)), y ∈ pc.1.set :=
  View.cover_of_tiled [⟨rSup, p0⟩] S8192x64.size (by rfl) y

/-! ## The body at a later point -/

set_option maxHeartbeats 2000000 in
/-- Away from the first point the body reads the adjacency rows, the bias row, W2 and the scratch (at S), and leaves
    the two output blocks at `copyBlock` and `hiddenBlock`; the scratch and the inputs are as they were. -/
theorem sound_later (c : Dev nD) (E : Set ℕ) (i : grid0.Coords) (arg1 : Memref sig .tc .vmem S8192x128 .f32) (harg1 : arg1.IsWhole) (arg2 : Memref sig .tc .vmem S512x8192 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S512x8192 .bf16) (harg6 : arg6.IsWhole) (arg7 : Memref sig .tc .vmem S512x16 .f32) (harg7 : arg7.IsWhole) (arg8 : Memref sig .tc .vmem S8192x64 .f32) (harg8 : arg8.IsWhole) (hc : ¬ isFirst i)
    (a : Vec F S512x8192 .f32) (b : Vec F S1x64 .f32) (w2 : Vec F S64x16 .f32) (S : Vec F S8192x64 .f32) (K : PUnit → sProp 𝕄) :
    iprop(owns (c : Thread nD τ) arg2 fullShare a ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ owns (c : Thread nD τ) arg8 fullShare S
        ∗ (iprop(owns (c : Thread nD τ) arg2 fullShare a ∗ owns (c : Thread nD τ) arg4 fullShare b ∗ owns (c : Thread nD τ) arg5 fullShare w2
            ∗ owns (c : Thread nD τ) arg6 fullShare (copyBlock a) ∗ owns (c : Thread nD τ) arg7 fullShare (hiddenBlock a S b w2) ∗ owns (c : Thread nD τ) arg8 fullShare S) -∗ K ⟨⟩))
      ⊢ wp frame (wpE (defs₀ (F := F)) Variants.none c none) E (cc0__pass1 i arg1 harg1 arg2 harg2 arg3 harg3 arg4 harg4 arg5 harg5 arg6 harg6 arg7 harg7 arg8 harg8) K := by
  simp only [cc0__pass1_eq_skeleton]; unfold cc0__pass1_skel
  unfold owns
  iintro ⟨⟨%f2, %hf2, H2⟩, ⟨%f4, %hf4, H4⟩, ⟨%f5, %hf5, H5⟩, ⟨%d6, %f6, -, H6⟩, ⟨%d7, %f7, -, H7⟩, ⟨%f8, %hf8, H8⟩, Hk⟩
  subst hf2; subst hf4; subst hf5; subst hf8
  sl_exec (disch := exact hc)
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_copy _)
  isplitl [H7]
  · iexists _; isplitr
    swap; · iexact H7
    ipureintro
    exact View.read_writes_eq_canon _ _ _ (cover_hidden _)
  iexists f8; isplitr; · ipureintro; rfl
  iexact H8

/-! ## The body at the first point -/

set_option maxHeartbeats 2000000 in
/-- At the first point the body also reads x and W1 and stores the supports into the scratch before reading them
    back. The pieces each written buffer ends with are found by the run itself (the witness). -/
noncomputable def firstRun (c : Dev nD) (i : grid0.Coords) (arg1 : Memref sig .tc .vmem S8192x128 .f32) (harg1 : arg1.IsWhole) (arg2 : Memref sig .tc .vmem S512x8192 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S512x8192 .bf16) (harg6 : arg6.IsWhole) (arg7 : Memref sig .tc .vmem S512x16 .f32) (harg7 : arg7.IsWhole) (arg8 : Memref sig .tc .vmem S8192x64 .f32) (harg8 : arg8.IsWhole) (hc : isFirst i)
    (x : Vec F S8192x128 .f32) (w1 : Vec F S128x64 .f32) (a : Vec F S512x8192 .f32) (b : Vec F S1x64 .f32) (w2 : Vec F S64x16 .f32) :
    Σ' (L6 : List (View.Piece (Elt F) S512x8192 .bf16)) (L7 : List (View.Piece (Elt F) S512x16 .f32)), { L8 : List (View.Piece (Elt F) S8192x64 .f32) //
      ∀ (E : Set ℕ) (K : PUnit → sProp 𝕄),
        iprop(owns (c : Thread nD τ) arg1 fullShare x ∗ owns (c : Thread nD τ) arg2 fullShare a ∗ owns (c : Thread nD τ) arg3 fullShare w1 ∗ owns (c : Thread nD τ) arg4 fullShare b ∗ owns (c : Thread nD τ) arg5 fullShare w2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x ∗ owns (c : Thread nD τ) arg2 fullShare a ∗ owns (c : Thread nD τ) arg3 fullShare w1 ∗ owns (c : Thread nD τ) arg4 fullShare b ∗ owns (c : Thread nD τ) arg5 fullShare w2
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__pass1 i arg1 harg1 arg2 harg2 arg3 harg3 arg4 harg4 arg5 harg5 arg6 harg6 arg7 harg7 arg8 harg8) K } := by
  refine ⟨?_, ?_, ?_, fun E K => ?run⟩
  case run =>
    simp only [cc0__pass1_eq_skeleton]; unfold cc0__pass1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.Kernel.Pass1

end
-- ==== Proof.BitsPass1Data.lean ====
/-
  The first pass as one region of the program, continued: the three facts that identify what the first point's run
  stored (the adjacency rows copied; the supports x·W1 in the scratch; the second-layer supports computed from the
  scratch as just stored), the region's invariant — before the first point nothing is known of the scratch, after
  any point it holds the supports of the x and W1 blocks —, the proof data (the two output blocks after each point
  as pure functions of the point's input blocks and those supports), and the body obligation at every point.
-/
import proofs.«126517_g27376121545431_cont_9to1_1572_14_alg».proof.Proof.BitsPass1Body

set_option maxRecDepth 16384

noncomputable section

namespace Cert.Kernel.Pass1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first point's run stored -/

section Pieces
variable (c : Dev nD) (i : grid0.Coords) (arg1 : Memref sig .tc .vmem S8192x128 .f32) (harg1 : arg1.IsWhole) (arg2 : Memref sig .tc .vmem S512x8192 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S512x8192 .bf16) (harg6 : arg6.IsWhole) (arg7 : Memref sig .tc .vmem S512x16 .f32) (harg7 : arg7.IsWhole) (arg8 : Memref sig .tc .vmem S8192x64 .f32) (harg8 : arg8.IsWhole) (hc : isFirst i)
    (x : Vec F S8192x128 .f32) (w1 : Vec F S128x64 .f32) (a : Vec F S512x8192 .f32) (b : Vec F S1x64 .f32) (w2 : Vec F S64x16 .f32)

/-- Into the first output block: the adjacency rows, copied. -/
theorem first_copy_pieces : (firstRun (F := F) c i arg1 harg1 arg2 harg2 arg3 harg3 arg4 harg4 arg5 harg5 arg6 harg6 arg7 harg7 arg8 harg8 hc x w1 a b w2).1 = [⟨rAdj, k0_pay2 (View.ld a rAdj)⟩] := by
  unfold firstRun
  dsimp only
  sl_unfold_words
  simp only [View.readAt_eq_ld, Memref.IsWhole.read_unread]

/-- Into the scratch: the supports x·W1, whole. -/
theorem first_scratch_pieces : (firstRun (F := F) c i arg1 harg1 arg2 harg2 arg3 harg3 arg4 harg4 arg5 harg5 arg6 harg6 arg7 harg7 arg8 harg8 hc x w1 a b w2).2.2.1 = [⟨rSup, k0_pay1 (View.ld x rX) (View.ld w1 rW1)⟩] := by
  unfold firstRun
  dsimp only
  sl_unfold_words
  simp only [View.readAt_eq_ld, Memref.IsWhole.read_unread]

/-- Into the second output block: the second-layer supports, computed from the scratch as the same run just stored it. -/
theorem first_hidden_pieces :
    (firstRun (F := F) c i arg1 harg1 arg2 harg2 arg3 harg3 arg4 harg4 arg5 harg5 arg6 harg6 arg7 harg7 arg8 harg8 hc x w1 a b w2).2.1 = [⟨rOut, k0_pay3 (View.ld a rAdj) (View.ld (supportAll x w1) rSup) (View.ld b rB1) (View.ld w2 rW2)⟩] := by
  unfold firstRun supportAll
  dsimp only
  sl_unfold_words
  simp only [View.readAt_eq_ld, Memref.IsWhole.read_unread, View.readCov_eq_canon']

/-- So each written buffer reads back as the closed form. -/
theorem first_copy_read (f) :
    arg6.view.read (Elt F) (arg6.view.writes (Elt F) f (firstRun (F := F) c i arg1 harg1 arg2 harg2 arg3 harg3 arg4 harg4 arg5 harg5 arg6 harg6 arg7 harg7 arg8 harg8 hc x w1 a b w2).1) = copyBlock a := by
  rw [first_copy_pieces]; exact View.read_writes_eq_canon _ _ _ (cover_copy _)
theorem first_hidden_read (f) :
    arg7.view.read (Elt F) (arg7.view.writes (Elt F) f (firstRun (F := F) c i arg1 harg1 arg2 harg2 arg3 harg3 arg4 harg4 arg5 harg5 arg6 harg6 arg7 harg7 arg8 harg8 hc x w1 a b w2).2.1) = hiddenBlock a (supportAll x w1) b w2 := by
  rw [first_hidden_pieces]; exact View.read_writes_eq_canon _ _ _ (cover_hidden _)
theorem first_scratch_read (f) :
    arg8.view.read (Elt F) (arg8.view.writes (Elt F) f (firstRun (F := F) c i arg1 harg1 arg2 harg2 arg3 harg3 arg4 harg4 arg5 harg5 arg6 harg6 arg7 harg7 arg8 harg8 hc x w1 a b w2).2.2.1) = supportAll x w1 := by
  rw [first_scratch_pieces]; exact View.read_writes_eq_canon _ _ _ (cover_support _)

end Pieces

variable (V : (c : Dev nD) → (b : Ref sig .tc) → Buf (Elt F) ((c : Thread nD τ).loc b))

/-! ## The invariant: the scratch carries the supports -/

/-- The first grid point. -/
def t0 : Fin cfg0.N := ⟨0, by rw [show cfg0.N = 16 from N_0]; decide⟩

/-- The scratch operand: a whole scoped buffer of the kernel's own. -/
abbrev scM : Memref sig .tc .vmem S8192x64 .f32 := Memref.whole cc0_scratch0

/-- The supports x·W1, of the x and W1 blocks as the first point finds them. -/
def supports (c : Dev nD) : Vec F S8192x64 .f32 := supportAll (blockAt V c 0 t0) (blockAt V c 2 t0)

/-- The scoped buffers that are neither this region's staging buffers nor its scratch (the second pass's staging
    buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch operand as a memref owned at some contents. -/
theorem PhiA_eq (c : Dev nD) :
    (Pipeline.ΦA spec0 c : sProp 𝕄)
      = iprop(iprop((∃ d, owns (c : Thread nD τ) scM fullShare d) ∗ otherScoped c) ∗ (∃ r, prngReg c r)) := by
  unfold Pipeline.ΦA otherScoped; rw [scopedRest0_eq]; simp only [scM, owns_whole]; try rfl

/-- The invariant before position n: before the first point the class's; afterwards the scratch at the supports. -/
def Phi (c : Dev nD) : ℕ → sProp 𝕄
  | 0 => Pipeline.ΦA spec0 c
  | _ + 1 => iprop(iprop(owns (c : Thread nD τ) scM fullShare (supports V c) ∗ otherScoped c) ∗ (∃ r, prngReg c r))

theorem Phi_zero (c : Dev nD) (n : ℕ) (hz : n = 0) : Phi V c n = Pipeline.ΦA spec0 c := by subst hz; rfl
theorem Phi_pos (c : Dev nD) (n : ℕ) (hz : n ≠ 0) :
    Phi V c n = iprop(iprop(owns (c : Thread nD τ) scM fullShare (supports V c) ∗ otherScoped c) ∗ (∃ r, prngReg c r)) := by
  cases n with
  | zero => exact absurd rfl hz
  | succ n => rfl

/-! ## The region's proof data -/

/-- The arrays as the region finds them; after the body at point t each input's buffer at its block, the first
    output's at the copied adjacency rows and the second's at the second-layer supports of those rows. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => copyBlock (blockAt V c 1 t)
    | ⟨6, _⟩ => hiddenBlock (blockAt V c 1 t) (supports V c) (blockAt V c 3 t) (blockAt V c 4 t)
  Φ t := Phi V c t.val
  q _ := fullShare
  owed _ := 0

theorem A_eq (c : Dev nD) (w : Fin cfg0.W) : (dat V c).A w = V c (Pipeline.arrRef spec0 w) := by
  dsimp only [dat]

theorem after_in0 (c : Dev nD) (t : Fin cfg0.N) : (dat V c).after 0 t = blockAt V c 0 t := by dsimp only [dat]
theorem after_in1 (c : Dev nD) (t : Fin cfg0.N) : (dat V c).after 1 t = blockAt V c 1 t := by dsimp only [dat]
theorem after_in2 (c : Dev nD) (t : Fin cfg0.N) : (dat V c).after 2 t = blockAt V c 2 t := by dsimp only [dat]
theorem after_in3 (c : Dev nD) (t : Fin cfg0.N) : (dat V c).after 3 t = blockAt V c 3 t := by dsimp only [dat]
theorem after_in4 (c : Dev nD) (t : Fin cfg0.N) : (dat V c).after 4 t = blockAt V c 4 t := by dsimp only [dat]
theorem after_copy (c : Dev nD) (t : Fin cfg0.N) : (dat V c).after 5 t = copyBlock (blockAt V c 1 t) := by dsimp only [dat]
theorem after_hidden (c : Dev nD) (t : Fin cfg0.N) :
    (dat V c).after 6 t = hiddenBlock (blockAt V c 1 t) (supports V c) (blockAt V c 3 t) (blockAt V c 4 t) := by dsimp only [dat]

theorem before_in0 (c : Dev nD) (t : Fin cfg0.N) (d) : (dat V c).before 0 t d = blockAt V c 0 t :=
  before_in0_of V (dat V c) (A_eq V c 0) (after_in0 V c) t d
theorem before_in1 (c : Dev nD) (t : Fin cfg0.N) (d) : (dat V c).before 1 t d = blockAt V c 1 t :=
  before_in1_of V (dat V c) (A_eq V c 1) (after_in1 V c) t d
theorem before_in2 (c : Dev nD) (t : Fin cfg0.N) (d) : (dat V c).before 2 t d = blockAt V c 2 t :=
  before_in2_of V (dat V c) (A_eq V c 2) (after_in2 V c) t d
theorem before_in3 (c : Dev nD) (t : Fin cfg0.N) (d) : (dat V c).before 3 t d = blockAt V c 3 t :=
  before_in3_of V (dat V c) (A_eq V c 3) (after_in3 V c) t d
theorem before_in4 (c : Dev nD) (t : Fin cfg0.N) (d) : (dat V c).before 4 t d = blockAt V c 4 t :=
  before_in4_of V (dat V c) (A_eq V c 4) (after_in4 V c) t d

/-! ## The body obligation -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

set_option maxHeartbeats 4000000 in
/-- The body at any point. At the first point the invariant hands the scratch over at anything and takes it back at
    the supports the run stored; at a later point it hands it over at the supports and takes it back untouched. The
    inputs' buffers hold their blocks; what the core owes passes through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3, before_in4]
  rw [show (dat V c).owesAt () t.succ = (dat V c).owesAt () t.castSucc from rfl,
    show (dat V c).Φ t.succ = Phi V c (t.val + 1) from rfl,
    show (dat V c).Φ t.castSucc = Phi V c t.val from rfl,
    after_in0, after_in1, after_in2, after_in3, after_in4, after_copy, after_hidden,
    Phi_pos V c (t.val + 1) (Nat.succ_ne_zero _)]
  by_cases h0 : t.val = 0
  · obtain rfl : t = t0 := Fin.ext h0
    rw [Phi_zero V c _ h0, PhiA_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((firstRun c (grid0.coords t0) _ _ _ _ _ _ _ _ _ _ _ _ _ _ _ _ ((isFirst_iff t0).mpr rfl)
      (blockAt V c 0 t0) (blockAt V c 2 t0) (blockAt V c 1 t0) (blockAt V c 3 t0) (blockAt V c 4 t0)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%e8, H8⟩⟩
    isplitl [H8 Hoth Hg]
    · isplitl [H8 Hoth]
      · isplitl [H8]
        · unfold owns; iexists _; isplitr
          swap; · iexact H8
          ipureintro; exact first_scratch_read c _ _ _ _ _ _ _ _ _ _ _ _ _ _ _ _ _ _ _ _ _ _ _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact first_copy_read c _ _ _ _ _ _ _ _ _ _ _ _ _ _ _ _ _ _ _ _ _ _ _ _
    unfold owns; iexists _; isplitr
    swap; · iexact H6
    ipureintro; exact first_hidden_read c _ _ _ _ _ _ _ _ _ _ _ _ _ _ _ _ _ _ _ _ _ _ _ _
  · rw [Phi_pos V c _ h0]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (sound_later c Set.univ (grid0.coords t) _ _ _ _ _ _ _ _ _ _ _ _ _ _ _ _ (fun h => h0 ((isFirst_iff t).mp h))
      (blockAt V c 1 t) (blockAt V c 3 t) (blockAt V c 4 t) (supports V c) _)
    isplitl [H1]; · iexact H1
    isplitl [H3]; · iexact H3
    isplitl [H4]; · iexact H4
    isplitl [H5]; · iexists _; iexact H5
    isplitl [H6]; · iexists _; iexact H6
    isplitl [HS]; · iexact HS
    iintro ⟨H1, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem Phi_in (c : Dev nD) : Pipeline.ΦA spec0 c ⊢ (dat V c).Φ 0 := by
  rw [show (dat V c).Φ 0 = Phi V c 0 from rfl, Phi_zero V c 0 rfl]

/-- After the last point the invariant gives the class's back: what the scratch holds is forgotten. -/
theorem Phi_out (c : Dev nD) : (dat V c).Φ (Fin.last cfg0.N) ⊢ Pipeline.ΦA spec0 c := by
  rw [show (dat V c).Φ (Fin.last cfg0.N) = Phi V c cfg0.N from rfl,
    Phi_pos V c _ (by rw [show cfg0.N = 16 from N_0]; decide), PhiA_eq]
  iintro ⟨⟨HS, Hoth⟩, Hg⟩
  isplitl [HS Hoth]
  · isplitl [HS]; · iexists _; iexact HS
    iexact Hoth
  iexact Hg

end Cert.Kernel.Pass1

end
-- ==== Proof.BitsPass2.lean ====
/-
  The second pass of the two-layer graph convolution, as one region of the program: at grid point t the body
  reads rows 512·t … 512·t+511 of the (copied) adjacency matrix, the whole 8192×16 array of second-layer supports
  and the 1×16 bias row, and stores the 512×16 block of log-softmax rows. Every access is a whole-buffer
  rectangle, the body keeps nothing between points, and its one store covers the output block: what the output
  block holds after the body is one pure function of the three input blocks (`logitsBlock`).
  Stated at any float instance F and at a parameter V, the buffer contents when the region is entered.
-/
import proofs.«126517_g27376121545431_cont_9to1_1572_14_alg».proof.Proof.Gen.Kernel.Launch
import proofs.«126517_g27376121545431_cont_9to1_1572_14_alg».proof.Proof.Gen.Kernel.Skeleton
import proofs.«126517_g27376121545431_cont_9to1_1572_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's buffer holds rows 512·t… of the adjacency array at every point. -/
theorem before_adj_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The supports window's buffer holds the whole supports array at every point (fetched once: its index never moves). -/
theorem before_sup_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias window's buffer holds the bias row at every point. -/
theorem before_bias_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each is the whole buffer -/

abbrev rAdj : Rect S512x8192 := Rect.unit (s := S512x8192) ![0, 0] S512x8192.size inb_S512x8192_S512x8192_0_0
abbrev rSup : Rect S8192x16 := Rect.unit (s := S8192x16) ![0, 0] S8192x16.size inb_S8192x16_S8192x16_0_0
abbrev rBias : Rect S1x16 := Rect.unit (s := S1x16) ![0, 0] S1x16.size inb_S1x16_S1x16_0_0
abbrev rOut : Rect S512x16 := Rect.unit (s := S512x16) ![0, 0] S512x16.size inb_S512x16_S512x16_0_0

/-! ## What the body leaves in the output block -/

/-- The output block after the body: its one store, of the log-softmax rows computed from the three input blocks. -/
def logitsBlock (a : Vec F S512x8192 .bf16) (s : Vec F S8192x16 .f32) (b : Vec F S1x16 .f32) : Vec F S512x16 .f32 :=
  View.canon [⟨rOut, k1_pay1 (View.ld a rAdj) (View.ld s rSup) (View.ld b rBias)⟩]

/-- The store is of the whole block, so it covers it. -/
theorem cover_out (p0 : Vec F S512x16 .f32) (y : S512x16.Idx) :
    ∃ pc ∈ ([⟨rOut, p0⟩] : List (View.Piece (Elt F) S512x16 .f32)), y ∈ pc.1.set :=
  View.cover_of_tiled [⟨rOut, p0⟩] S512x16.size (by rfl) y

/-! ## The body's triple -/

set_option maxHeartbeats 1000000 in
/-- On whole buffers — the inputs' at contents a, s, b, the output's at anything — the body runs to its return
    with the inputs' buffers as they were and the output's at `logitsBlock a s b`. -/
theorem sound_pass2 (c : Dev nD) (E : Set ℕ) (i : grid1.Coords)
    (arg1 : Memref sig .tc .vmem S512x8192 .bf16) (harg1 : arg1.IsWhole) (arg2 : Memref sig .tc .vmem S8192x16 .f32) (harg2 : arg2.IsWhole)
    (arg3 : Memref sig .tc .vmem S1x16 .f32) (harg3 : arg3.IsWhole) (arg4 : Memref sig .tc .vmem S512x16 .f32) (harg4 : arg4.IsWhole)
    (a : Vec F S512x8192 .bf16) (s : Vec F S8192x16 .f32) (b : Vec F S1x16 .f32) (K : PUnit → sProp 𝕄) :
    iprop(owns (c : Thread nD τ) arg1 fullShare a ∗ owns (c : Thread nD τ) arg2 fullShare s ∗ owns (c : Thread nD τ) arg3 fullShare b
        ∗ (∃ d, owns (c : Thread nD τ) arg4 fullShare d)
        ∗ (iprop(owns (c : Thread nD τ) arg1 fullShare a ∗ owns (c : Thread nD τ) arg2 fullShare s ∗ owns (c : Thread nD τ) arg3 fullShare b
            ∗ owns (c : Thread nD τ) arg4 fullShare (logitsBlock a s b)) -∗ K ⟨⟩))
      ⊢ wp frame (wpE (defs₀ (F := F)) Variants.none c none) E (cc1__pass2 i arg1 harg1 arg2 harg2 arg3 harg3 arg4 harg4) K := by
  simp only [cc1__pass2_eq_skeleton]; unfold cc1__pass2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The region's proof data -/

/-- The arrays as the region finds them; after the body at point t each input's buffer at its block and the
    output's at `logitsBlock` of the three input blocks; the invariant the scoped rest and the generator register,
    untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => logitsBlock (blockAt V c 0 t) (blockAt V c 1 t) (blockAt V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_adj (c : Dev nD) (t : Fin cfg1.N) : (dat V c).after 0 t = blockAt V c 0 t := by dsimp only [dat]
theorem after_sup (c : Dev nD) (t : Fin cfg1.N) : (dat V c).after 1 t = blockAt V c 1 t := by dsimp only [dat]
theorem after_bias (c : Dev nD) (t : Fin cfg1.N) : (dat V c).after 2 t = blockAt V c 2 t := by dsimp only [dat]
theorem after_out (c : Dev nD) (t : Fin cfg1.N) :
    (dat V c).after 3 t = logitsBlock (blockAt V c 0 t) (blockAt V c 1 t) (blockAt V c 2 t) := by dsimp only [dat]

theorem before_adj (c : Dev nD) (t : Fin cfg1.N) (d) : (dat V c).before 0 t d = blockAt V c 0 t :=
  before_adj_of V (dat V c) (A_eq V c 0) (after_adj V c) t d
theorem before_sup (c : Dev nD) (t : Fin cfg1.N) (d) : (dat V c).before 1 t d = blockAt V c 1 t :=
  before_sup_of V (dat V c) (A_eq V c 1) (after_sup V c) t d
theorem before_bias (c : Dev nD) (t : Fin cfg1.N) (d) : (dat V c).before 2 t d = blockAt V c 2 t :=
  before_bias_of V (dat V c) (A_eq V c 2) (after_bias V c) t d

/-! ## The body obligation -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_sup, before_bias]
  rw [show (dat V c).Φ t.succ = (dat V c).Φ t.castSucc from rfl,
    show (dat V c).owesAt () t.succ = (dat V c).owesAt () t.castSucc from rfl,
    after_adj, after_sup, after_bias, after_out]
  iintro ⟨HΦ, Ho, ⟨%d0, H0⟩, ⟨%d1, H1⟩, ⟨%d2, H2⟩, ⟨%d3, H3⟩⟩
  iapply (sound_pass2 c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Pass2

end
-- ==== Proof.BitsRun.lean ====
/-
  The whole program's run: @main is one stretch of two host reshapes (the bias vectors as rows), the first pass's
  region and the second pass's region. Here: what every unscoped buffer holds between two items, as a fold from the
  launch memory (a host stretch applies its operations; a region leaves its arrays at what its write-backs fold to
  and every other buffer as entered); each argument array read back through the fold to its launch contents; the two
  regions' records over that thread state; and the run — every weakly fair execution of @main terminates, faulting
  nowhere, with every unscoped buffer at the last contents of the fold. The frame and the result's value are read
  off that one run.
-/
import proofs.«126517_g27376121545431_cont_9to1_1572_14_alg».proof.Proof.BitsPass1Data
import proofs.«126517_g27376121545431_cont_9to1_1572_14_alg».proof.Proof.BitsPass2

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents between items -/

/-- Core c's buffers at launch. -/
abbrev Wa : Dev nD → Valuation τ sig (Elt F) := fun c b => m ((c : Dev nD), b)
/-- After the two host reshapes: the first pass's entry contents. -/
abbrev Wb : Dev nD → Valuation τ sig (Elt F) := fun c => StableHlo.after hostOps0 (Wa m c)
abbrev Vb : (c : Dev nD) → (b : Ref sig .tc) → Buf (Elt F) ((c : Thread nD τ).loc b) := fun c b => Wb m c b
/-- After the first pass: its arrays at what the write-backs leave, every other buffer as entered. -/
def Wc (c : Dev nD) : Valuation τ sig (Elt F) :=
  Pipeline.withArrays spec0 c (Wb m c) fun w => (Pass1.dat (Vb m) c).arrAt w cfg0.N
theorem Wc_arr (c : Dev nD) (w : Fin cfg0.W) :
    Wc m c (Proc.devRef .tc (Pipeline.arrRef spec0 w)) = (Pass1.dat (Vb m) c).arrAt w cfg0.N := by
  unfold Wc; exact Pipeline.withArrays_arr spec0 launch0.win.arr_inj c _ _ w
theorem Wc_of_ne (c : Dev nD) (b : Ref sig .tc) (hb : ∀ w, Pipeline.arrRef spec0 w ≠ b) :
    Wc m c (Proc.devRef .tc b) = Wb m c (Proc.devRef .tc b) := by
  unfold Wc; exact Pipeline.withArrays_of_ne spec0 c _ _ b hb
abbrev Vc : (c : Dev nD) → (b : Ref sig .tc) → Buf (Elt F) ((c : Thread nD τ).loc b) := fun c b => Wc m c b
theorem arrs0 (c : Dev nD) (w : Fin cfg0.W) : (Pass1.dat (Vb m) c).arrAt w cfg0.N = Vc m c (Pipeline.arrRef spec0 w) :=
  (Wc_arr m c w).symm
theorem rest0 (c : Dev nD) : ∀ b, b ∉ Finset.univ.image (Pipeline.arrRef spec0) → Vc m c b = Vb m c b :=
  fun b hb => Wc_of_ne m c b fun w e => hb (Finset.mem_image.mpr ⟨w, Finset.mem_univ _, e⟩)
/-- After the second pass: likewise. -/
def Wd (c : Dev nD) : Valuation τ sig (Elt F) :=
  Pipeline.withArrays spec1 c (Wc m c) fun w => (Pass2.dat (Vc m) c).arrAt w cfg1.N
theorem Wd_arr (c : Dev nD) (w : Fin cfg1.W) :
    Wd m c (Proc.devRef .tc (Pipeline.arrRef spec1 w)) = (Pass2.dat (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
abbrev Vd : (c : Dev nD) → (b : Ref sig .tc) → Buf (Elt F) ((c : Thread nD τ).loc b) := fun c b => Wd m c b
theorem arrs1 (c : Dev nD) (w : Fin cfg1.W) : (Pass2.dat (Vc m) c).arrAt w cfg1.N = Vd m c (Pipeline.arrRef spec1 w) :=
  (Wd_arr m c w).symm
theorem rest1 (c : Dev nD) : ∀ b, b ∉ Finset.univ.image (Pipeline.arrRef spec1) → Vd m c b = Vc m c b :=
  fun b hb => Wd_of_ne m c b fun w e => hb (Finset.mem_image.mpr ⟨w, Finset.mem_univ _, e⟩)

/-! ## The arguments end as launched -/

theorem Wd_main_arg0 (c : Dev nD) : Wd m c (Proc.devRef .tc main_arg0) = m ((c : Thread nD τ).loc main_arg0) :=
  calc Wd m c (Proc.devRef .tc main_arg0)
    _ = Wc m c (Proc.devRef .tc main_arg0) := Wd_of_ne m c main_arg0 (by decide)
    _ = Wb m c (Proc.devRef .tc main_arg0) := (Wc_arr m c 0).trans (((Pass1.dat (Vb m) c).arrAt_in 0 rfl _).trans (Pass1.A_eq (Vb m) c 0))
    _ = Wa m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem Wd_main_arg1 (c : Dev nD) : Wd m c (Proc.devRef .tc main_arg1) = m ((c : Thread nD τ).loc main_arg1) :=
  calc Wd m c (Proc.devRef .tc main_arg1)
    _ = Wc m c (Proc.devRef .tc main_arg1) := Wd_of_ne m c main_arg1 (by decide)
    _ = Wb m c (Proc.devRef .tc main_arg1) := (Wc_arr m c 1).trans (((Pass1.dat (Vb m) c).arrAt_in 1 rfl _).trans (Pass1.A_eq (Vb m) c 1))
    _ = Wa m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem Wd_main_arg2 (c : Dev nD) : Wd m c (Proc.devRef .tc main_arg2) = m ((c : Thread nD τ).loc main_arg2) :=
  calc Wd m c (Proc.devRef .tc main_arg2)
    _ = Wc m c (Proc.devRef .tc main_arg2) := Wd_of_ne m c main_arg2 (by decide)
    _ = Wb m c (Proc.devRef .tc main_arg2) := (Wc_arr m c 2).trans (((Pass1.dat (Vb m) c).arrAt_in 2 rfl _).trans (Pass1.A_eq (Vb m) c 2))
    _ = Wa m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem Wd_main_arg3 (c : Dev nD) : Wd m c (Proc.devRef .tc main_arg3) = m ((c : Thread nD τ).loc main_arg3) :=
  calc Wd m c (Proc.devRef .tc main_arg3)
    _ = Wc m c (Proc.devRef .tc main_arg3) := Wd_of_ne m c main_arg3 (by decide)
    _ = Wb m c (Proc.devRef .tc main_arg3) := Wc_of_ne m c main_arg3 (by decide)
    _ = Wa m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem Wd_main_arg4 (c : Dev nD) : Wd m c (Proc.devRef .tc main_arg4) = m ((c : Thread nD τ).loc main_arg4) :=
  calc Wd m c (Proc.devRef .tc main_arg4)
    _ = Wc m c (Proc.devRef .tc main_arg4) := Wd_of_ne m c main_arg4 (by decide)
    _ = Wb m c (Proc.devRef .tc main_arg4) := (Wc_arr m c 4).trans (((Pass1.dat (Vb m) c).arrAt_in 4 rfl _).trans (Pass1.A_eq (Vb m) c 4))
    _ = Wa m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem Wd_main_arg5 (c : Dev nD) : Wd m c (Proc.devRef .tc main_arg5) = m ((c : Thread nD τ).loc main_arg5) :=
  calc Wd m c (Proc.devRef .tc main_arg5)
    _ = Wc m c (Proc.devRef .tc main_arg5) := Wd_of_ne m c main_arg5 (by decide)
    _ = Wb m c (Proc.devRef .tc main_arg5) := Wc_of_ne m c main_arg5 (by decide)
    _ = Wa m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
/-- Each region's proof data at its entry contents — a literal match on the pipeline's index. -/
def pdats : (p : Fin 2) → (c : Dev nD) → Dat τ (Elt F) Unit ℕ (UR sig nD τ) ℕ (Pipeline.pin (pcfgs (F := F)) adm p) c
  | ⟨0, _⟩ => fun c => Pass1.dat (Vb m) c
  | ⟨1, _⟩ => fun c => Pass2.dat (Vc m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_alloc_none : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wd m c) ∗ ∃ r, prngReg c r)

/-! ## The regions as segments -/

set_option backward.isDefEq.respectTransparency.types false in
/-- Region 0 over the thread state: entered from every unscoped buffer at the contents before it, left at the contents
    after it. Its arrays are split out of the unscoped buffers and put back at what the write-backs leave; the
    generator register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pass1.body_obligation (Vb m) c).loose
  hwaits := Pipeline.hwaits_of_owed_zero _ _ _ _ L lv 0 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec0 c (Vb m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄)
        ⊢ (Pass1.dat (Vb m) c).Φ 0 := by
      have h' := Pass1.Phi_in (Vb m) c
      unfold Pipeline.ΦA at h'
      exact h'
    rw [show (pdats m 0 c).Φ 0 = (Pass1.dat (Vb m) c).Φ 0 from rfl]
    iintro ⟨Hp, -, Hr⟩
    iapply h
    isplitl [Hr]; · iexact Hr
    iexact Hp
  hout c := by
    have h : (Pass1.dat (Vb m) c).Φ (Fin.last cfg0.N)
        ⊢ (iprop(Pipeline.scopedRest (Ix := Unit) (Name := ℕ) (U := UR sig nD τ) (Lvl := ℕ) (Val := Elt F) spec0 c ∗ ∃ r, prngReg c r) : sProp 𝕄) := by
      have h' := Pass1.Phi_out (Vb m) c
      unfold Pipeline.ΦA at h'
      exact h'
    rw [Pipeline.ownSems0_none, show (pdats m 0 c).Φ (Fin.last _) = (Pass1.dat (Vb m) c).Φ (Fin.last cfg0.N) from rfl]
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vb m c) (Vc m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the write-backs leave; the
    generator register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pass2.body_obligation (Vc m) c).loose
  hwaits := Pipeline.hwaits_of_owed_zero _ _ _ _ L lv 1 fun _ _ => rfl
  pre c := iprop(StableHlo.held (c : Thread nD τ) (Pipeline.ucRefs τ sig) (Wc m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vc m c) (Vd m c) ((pdats m 1 c).arrAt · cfg1.N) (arrs1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_alloc_none (Wa m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, faulting nowhere,
    and every final state has every unscoped buffer at the fold's last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Wd_main_arg0 m c),
     (h c _ (mem_uc main_arg1 (by decide))).trans (Wd_main_arg1 m c),
     (h c _ (mem_uc main_arg2 (by decide))).trans (Wd_main_arg2 m c),
     (h c _ (mem_uc main_arg3 (by decide))).trans (Wd_main_arg3 m c),
     (h c _ (mem_uc main_arg4 (by decide))).trans (Wd_main_arg4 m c),
     (h c _ (mem_uc main_arg5 (by decide))).trans (Wd_main_arg5 m c)⟩) (run_all m ρ)

/-- The result array ends at what the second pass's write-backs fold to; the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v3) = (Pass2.dat (Vc m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3 (by decide))).trans (Wd_arr m c 3),
     (h c _ (mem_uc main_arg0 (by decide))).trans (Wd_main_arg0 m c),
     (h c _ (mem_uc main_arg1 (by decide))).trans (Wd_main_arg1 m c),
     (h c _ (mem_uc main_arg2 (by decide))).trans (Wd_main_arg2 m c),
     (h c _ (mem_uc main_arg3 (by decide))).trans (Wd_main_arg3 m c),
     (h c _ (mem_uc main_arg4 (by decide))).trans (Wd_main_arg4 m c),
     (h c _ (mem_uc main_arg5 (by decide))).trans (Wd_main_arg5 m c)⟩) (run_all m ρ)

end Cert.Kernel.Run

end
-- ==== Proof.IdealPass1Body.lean ====
/-
  The first pass of the two-layer graph convolution, as one region of the program. Its body keeps a scratch
  array between grid points: at the first point it computes the first-layer supports x·W1 (8192×64) once and
  stores them whole into the scratch; at every point t it copies rows 512·t … of the adjacency matrix into the
  first output block, and from those rows, the scratch, the bias row and W2 computes the 512×16 block of
  second-layer supports into the second output block. Every access is a whole-buffer rectangle.
  Here: the windows' blocks, the branch condition decided over the grid, and the body's run in its two cases —
  at a later point (the scratch an input at what the first point left) and at the first point (the scratch stored,
  then read back). Stated at any float instance F and at a parameter V, the buffer contents at the region's entry.
-/
import proofs.«126517_g27376121545431_cont_9to1_1572_14_alg».proof.Proof.Gen.KernelIdeal.Launch
import proofs.«126517_g27376121545431_cont_9to1_1572_14_alg».proof.Proof.Gen.KernelIdeal.Skeleton
import proofs.«126517_g27376121545431_cont_9to1_1572_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not. -/
theorem before_in0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's buffer holds its block at every point, fetched there or not. -/
theorem before_in1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's buffer holds its block at every point, fetched there or not. -/
theorem before_in2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's buffer holds its block at every point, fetched there or not. -/
theorem before_in3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's buffer holds its block at every point, fetched there or not. -/
theorem before_in4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each is the whole buffer -/

abbrev rX : Rect S8192x128 := Rect.unit (s := S8192x128) ![0, 0] S8192x128.size inb_S8192x128_S8192x128_0_0
abbrev rAdj : Rect S512x8192 := Rect.unit (s := S512x8192) ![0, 0] S512x8192.size inb_S512x8192_S512x8192_0_0
abbrev rW1 : Rect S128x64 := Rect.unit (s := S128x64) ![0, 0] S128x64.size inb_S128x64_S128x64_0_0
abbrev rB1 : Rect S1x64 := Rect.unit (s := S1x64) ![0, 0] S1x64.size inb_S1x64_S1x64_0_0
abbrev rW2 : Rect S64x16 := Rect.unit (s := S64x16) ![0, 0] S64x16.size inb_S64x16_S64x16_0_0
abbrev rSup : Rect S8192x64 := Rect.unit (s := S8192x64) ![0, 0] S8192x64.size inb_S8192x64_S8192x64_0_0
abbrev rOut : Rect S512x16 := Rect.unit (s := S512x16) ![0, 0] S512x16.size inb_S512x16_S512x16_0_0

/-! ## The branch: the supports are computed at the first point only -/

/-- The body's condition, from the grid coordinates. -/
abbrev isFirst (i : grid0.Coords) : Prop := (Scalar.cmpi .ne (Scalar.extui (Scalar.cmpi .eq (BitVec.ofNat 32 (i 0).val) 0#32)) 0#32) = 1#1
/-- It holds at point 0 and nowhere else — decided over the grid. -/
theorem isFirst_iff : ∀ t : Fin cfg0.N, isFirst (grid0.coords t) ↔ t.val = 0 :=
  (by decide +kernel : ∀ t : Fin grid0.N, isFirst (grid0.coords t) ↔ t.val = 0)

/-! ## What the body leaves -/

/-- The scratch after the first point: the first-layer supports x·W1, stored whole. -/
def supportAll (x : Vec F S8192x128 .f32) (w1 : Vec F S128x64 .f32) : Vec F S8192x64 .f32 :=
  View.canon [⟨rSup, k0_pay1 (View.ld x rX) (View.ld w1 rW1)⟩]

/-- The first output block: the adjacency rows, copied. -/
def copyBlock (a : Vec F S512x8192 .f32) : Vec F S512x8192 .bf16 :=
  View.canon [⟨rAdj, k0_pay2 (View.ld a rAdj)⟩]

/-- The second output block: the second-layer supports of these rows, from the scratch S, the bias row and W2. -/
def hiddenBlock (a : Vec F S512x8192 .f32) (S : Vec F S8192x64 .f32) (b : Vec F S1x64 .f32) (w2 : Vec F S64x16 .f32) : Vec F S512x16 .f32 :=
  View.canon [⟨rOut, k0_pay3 (View.ld a rAdj) (View.ld S rSup) (View.ld b rB1) (View.ld w2 rW2)⟩]

theorem cover_copy (p0 : Vec F S512x8192 .bf16) (y : S512x8192.Idx) :
    ∃ pc ∈ ([⟨rAdj, p0⟩] : List (View.Piece (Elt F) S512x8192 .bf16)), y ∈ pc.1.set :=
  View.cover_of_tiled [⟨rAdj, p0⟩] S512x8192.size (by rfl) y
theorem cover_hidden (p0 : Vec F S512x16 .f32) (y : S512x16.Idx) :
    ∃ pc ∈ ([⟨rOut, p0⟩] : List (View.Piece (Elt F) S512x16 .f32)), y ∈ pc.1.set :=
  View.cover_of_tiled [⟨rOut, p0⟩] S512x16.size (by rfl) y
theorem cover_support (p0 : Vec F S8192x64 .f32) (y : S8192x64.Idx) :
    ∃ pc ∈ ([⟨rSup, p0⟩] : List (View.Piece (Elt F) S8192x64 .f32)), y ∈ pc.1.set :=
  View.cover_of_tiled [⟨rSup, p0⟩] S8192x64.size (by rfl) y

/-! ## The body at a later point -/

set_option maxHeartbeats 2000000 in
/-- Away from the first point the body reads the adjacency rows, the bias row, W2 and the scratch (at S), and leaves
    the two output blocks at `copyBlock` and `hiddenBlock`; the scratch and the inputs are as they were. -/
theorem sound_later (c : Dev nD) (E : Set ℕ) (i : grid0.Coords) (arg1 : Memref sig .tc .vmem S8192x128 .f32) (harg1 : arg1.IsWhole) (arg2 : Memref sig .tc .vmem S512x8192 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S512x8192 .bf16) (harg6 : arg6.IsWhole) (arg7 : Memref sig .tc .vmem S512x16 .f32) (harg7 : arg7.IsWhole) (arg8 : Memref sig .tc .vmem S8192x64 .f32) (harg8 : arg8.IsWhole) (hc : ¬ isFirst i)
    (a : Vec F S512x8192 .f32) (b : Vec F S1x64 .f32) (w2 : Vec F S64x16 .f32) (S : Vec F S8192x64 .f32) (K : PUnit → sProp 𝕄) :
    iprop(owns (c : Thread nD τ) arg2 fullShare a ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ owns (c : Thread nD τ) arg8 fullShare S
        ∗ (iprop(owns (c : Thread nD τ) arg2 fullShare a ∗ owns (c : Thread nD τ) arg4 fullShare b ∗ owns (c : Thread nD τ) arg5 fullShare w2
            ∗ owns (c : Thread nD τ) arg6 fullShare (copyBlock a) ∗ owns (c : Thread nD τ) arg7 fullShare (hiddenBlock a S b w2) ∗ owns (c : Thread nD τ) arg8 fullShare S) -∗ K ⟨⟩))
      ⊢ wp frame (wpE (defs₀ (F := F)) Variants.none c none) E (cc0__pass1 i arg1 harg1 arg2 harg2 arg3 harg3 arg4 harg4 arg5 harg5 arg6 harg6 arg7 harg7 arg8 harg8) K := by
  simp only [cc0__pass1_eq_skeleton]; unfold cc0__pass1_skel
  unfold owns
  iintro ⟨⟨%f2, %hf2, H2⟩, ⟨%f4, %hf4, H4⟩, ⟨%f5, %hf5, H5⟩, ⟨%d6, %f6, -, H6⟩, ⟨%d7, %f7, -, H7⟩, ⟨%f8, %hf8, H8⟩, Hk⟩
  subst hf2; subst hf4; subst hf5; subst hf8
  sl_exec (disch := exact hc)
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_copy _)
  isplitl [H7]
  · iexists _; isplitr
    swap; · iexact H7
    ipureintro
    exact View.read_writes_eq_canon _ _ _ (cover_hidden _)
  iexists f8; isplitr; · ipureintro; rfl
  iexact H8

/-! ## The body at the first point -/

set_option maxHeartbeats 2000000 in
/-- At the first point the body also reads x and W1 and stores the supports into the scratch before reading them
    back. The pieces each written buffer ends with are found by the run itself (the witness). -/
noncomputable def firstRun (c : Dev nD) (i : grid0.Coords) (arg1 : Memref sig .tc .vmem S8192x128 .f32) (harg1 : arg1.IsWhole) (arg2 : Memref sig .tc .vmem S512x8192 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S512x8192 .bf16) (harg6 : arg6.IsWhole) (arg7 : Memref sig .tc .vmem S512x16 .f32) (harg7 : arg7.IsWhole) (arg8 : Memref sig .tc .vmem S8192x64 .f32) (harg8 : arg8.IsWhole) (hc : isFirst i)
    (x : Vec F S8192x128 .f32) (w1 : Vec F S128x64 .f32) (a : Vec F S512x8192 .f32) (b : Vec F S1x64 .f32) (w2 : Vec F S64x16 .f32) :
    Σ' (L6 : List (View.Piece (Elt F) S512x8192 .bf16)) (L7 : List (View.Piece (Elt F) S512x16 .f32)), { L8 : List (View.Piece (Elt F) S8192x64 .f32) //
      ∀ (E : Set ℕ) (K : PUnit → sProp 𝕄),
        iprop(owns (c : Thread nD τ) arg1 fullShare x ∗ owns (c : Thread nD τ) arg2 fullShare a ∗ owns (c : Thread nD τ) arg3 fullShare w1 ∗ owns (c : Thread nD τ) arg4 fullShare b ∗ owns (c : Thread nD τ) arg5 fullShare w2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x ∗ owns (c : Thread nD τ) arg2 fullShare a ∗ owns (c : Thread nD τ) arg3 fullShare w1 ∗ owns (c : Thread nD τ) arg4 fullShare b ∗ owns (c : Thread nD τ) arg5 fullShare w2
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__pass1 i arg1 harg1 arg2 harg2 arg3 harg3 arg4 harg4 arg5 harg5 arg6 harg6 arg7 harg7 arg8 harg8) K } := by
  refine ⟨?_, ?_, ?_, fun E K => ?run⟩
  case run =>
    simp only [cc0__pass1_eq_skeleton]; unfold cc0__pass1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact H8

end Cert.KernelIdeal.Pass1

end
-- ==== Proof.IdealPass1Data.lean ====
/-
  The first pass as one region of the program, continued: the three facts that identify what the first point's run
  stored (the adjacency rows copied; the supports x·W1 in the scratch; the second-layer supports computed from the
  scratch as just stored), the region's invariant — before the first point nothing is known of the scratch, after
  any point it holds the supports of the x and W1 blocks —, the proof data (the two output blocks after each point
  as pure functions of the point's input blocks and those supports), and the body obligation at every point.
-/
import proofs.«126517_g27376121545431_cont_9to1_1572_14_alg».proof.Proof.IdealPass1Body

set_option maxRecDepth 16384

noncomputable section

namespace Cert.KernelIdeal.Pass1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first point's run stored -/

section Pieces
variable (c : Dev nD) (i : grid0.Coords) (arg1 : Memref sig .tc .vmem S8192x128 .f32) (harg1 : arg1.IsWhole) (arg2 : Memref sig .tc .vmem S512x8192 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x16 .f32) (harg5 : arg5.IsWhole) (arg6 : Memref sig .tc .vmem S512x8192 .bf16) (harg6 : arg6.IsWhole) (arg7 : Memref sig .tc .vmem S512x16 .f32) (harg7 : arg7.IsWhole) (arg8 : Memref sig .tc .vmem S8192x64 .f32) (harg8 : arg8.IsWhole) (hc : isFirst i)
    (x : Vec F S8192x128 .f32) (w1 : Vec F S128x64 .f32) (a : Vec F S512x8192 .f32) (b : Vec F S1x64 .f32) (w2 : Vec F S64x16 .f32)

/-- Into the first output block: the adjacency rows, copied. -/
theorem first_copy_pieces : (firstRun (F := F) c i arg1 harg1 arg2 harg2 arg3 harg3 arg4 harg4 arg5 harg5 arg6 harg6 arg7 harg7 arg8 harg8 hc x w1 a b w2).1 = [⟨rAdj, k0_pay2 (View.ld a rAdj)⟩] := by
  unfold firstRun
  dsimp only
  sl_unfold_words
  simp only [View.readAt_eq_ld, Memref.IsWhole.read_unread]

/-- Into the scratch: the supports x·W1, whole. -/
theorem first_scratch_pieces : (firstRun (F := F) c i arg1 harg1 arg2 harg2 arg3 harg3 arg4 harg4 arg5 harg5 arg6 harg6 arg7 harg7 arg8 harg8 hc x w1 a b w2).2.2.1 = [⟨rSup, k0_pay1 (View.ld x rX) (View.ld w1 rW1)⟩] := by
  unfold firstRun
  dsimp only
  sl_unfold_words
  simp only [View.readAt_eq_ld, Memref.IsWhole.read_unread]

/-- Into the second output block: the second-layer supports, computed from the scratch as the same run just stored it. -/
theorem first_hidden_pieces :
    (firstRun (F := F) c i arg1 harg1 arg2 harg2 arg3 harg3 arg4 harg4 arg5 harg5 arg6 harg6 arg7 harg7 arg8 harg8 hc x w1 a b w2).2.1 = [⟨rOut, k0_pay3 (View.ld a rAdj) (View.ld (supportAll x w1) rSup) (View.ld b rB1) (View.ld w2 rW2)⟩] := by
  unfold firstRun supportAll
  dsimp only
  sl_unfold_words
  simp only [View.readAt_eq_ld, Memref.IsWhole.read_unread, View.readCov_eq_canon']

/-- So each written buffer reads back as the closed form. -/
theorem first_copy_read (f) :
    arg6.view.read (Elt F) (arg6.view.writes (Elt F) f (firstRun (F := F) c i arg1 harg1 arg2 harg2 arg3 harg3 arg4 harg4 arg5 harg5 arg6 harg6 arg7 harg7 arg8 harg8 hc x w1 a b w2).1) = copyBlock a := by
  rw [first_copy_pieces]; exact View.read_writes_eq_canon _ _ _ (cover_copy _)
theorem first_hidden_read (f) :
    arg7.view.read (Elt F) (arg7.view.writes (Elt F) f (firstRun (F := F) c i arg1 harg1 arg2 harg2 arg3 harg3 arg4 harg4 arg5 harg5 arg6 harg6 arg7 harg7 arg8 harg8 hc x w1 a b w2).2.1) = hiddenBlock a (supportAll x w1) b w2 := by
  rw [first_hidden_pieces]; exact View.read_writes_eq_canon _ _ _ (cover_hidden _)
theorem first_scratch_read (f) :
    arg8.view.read (Elt F) (arg8.view.writes (Elt F) f (firstRun (F := F) c i arg1 harg1 arg2 harg2 arg3 harg3 arg4 harg4 arg5 harg5 arg6 harg6 arg7 harg7 arg8 harg8 hc x w1 a b w2).2.2.1) = supportAll x w1 := by
  rw [first_scratch_pieces]; exact View.read_writes_eq_canon _ _ _ (cover_support _)

end Pieces

variable (V : (c : Dev nD) → (b : Ref sig .tc) → Buf (Elt F) ((c : Thread nD τ).loc b))

/-! ## The invariant: the scratch carries the supports -/

/-- The first grid point. -/
def t0 : Fin cfg0.N := ⟨0, by rw [show cfg0.N = 16 from N_0]; decide⟩

/-- The scratch operand: a whole scoped buffer of the kernel's own. -/
abbrev scM : Memref sig .tc .vmem S8192x64 .f32 := Memref.whole cc0_scratch0

/-- The supports x·W1, of the x and W1 blocks as the first point finds them. -/
def supports (c : Dev nD) : Vec F S8192x64 .f32 := supportAll (blockAt V c 0 t0) (blockAt V c 2 t0)

/-- The scoped buffers that are neither this region's staging buffers nor its scratch (the second pass's staging
    buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant with the scratch operand as a memref owned at some contents. -/
theorem PhiA_eq (c : Dev nD) :
    (Pipeline.ΦA spec0 c : sProp 𝕄)
      = iprop(iprop((∃ d, owns (c : Thread nD τ) scM fullShare d) ∗ otherScoped c) ∗ (∃ r, prngReg c r)) := by
  unfold Pipeline.ΦA otherScoped; rw [scopedRest0_eq]; simp only [scM, owns_whole]; try rfl

/-- The invariant before position n: before the first point the class's; afterwards the scratch at the supports. -/
def Phi (c : Dev nD) : ℕ → sProp 𝕄
  | 0 => Pipeline.ΦA spec0 c
  | _ + 1 => iprop(iprop(owns (c : Thread nD τ) scM fullShare (supports V c) ∗ otherScoped c) ∗ (∃ r, prngReg c r))

theorem Phi_zero (c : Dev nD) (n : ℕ) (hz : n = 0) : Phi V c n = Pipeline.ΦA spec0 c := by subst hz; rfl
theorem Phi_pos (c : Dev nD) (n : ℕ) (hz : n ≠ 0) :
    Phi V c n = iprop(iprop(owns (c : Thread nD τ) scM fullShare (supports V c) ∗ otherScoped c) ∗ (∃ r, prngReg c r)) := by
  cases n with
  | zero => exact absurd rfl hz
  | succ n => rfl

/-! ## The region's proof data -/

/-- The arrays as the region finds them; after the body at point t each input's buffer at its block, the first
    output's at the copied adjacency rows and the second's at the second-layer supports of those rows. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => copyBlock (blockAt V c 1 t)
    | ⟨6, _⟩ => hiddenBlock (blockAt V c 1 t) (supports V c) (blockAt V c 3 t) (blockAt V c 4 t)
  Φ t := Phi V c t.val
  q _ := fullShare
  owed _ := 0

theorem A_eq (c : Dev nD) (w : Fin cfg0.W) : (dat V c).A w = V c (Pipeline.arrRef spec0 w) := by
  dsimp only [dat]

theorem after_in0 (c : Dev nD) (t : Fin cfg0.N) : (dat V c).after 0 t = blockAt V c 0 t := by dsimp only [dat]
theorem after_in1 (c : Dev nD) (t : Fin cfg0.N) : (dat V c).after 1 t = blockAt V c 1 t := by dsimp only [dat]
theorem after_in2 (c : Dev nD) (t : Fin cfg0.N) : (dat V c).after 2 t = blockAt V c 2 t := by dsimp only [dat]
theorem after_in3 (c : Dev nD) (t : Fin cfg0.N) : (dat V c).after 3 t = blockAt V c 3 t := by dsimp only [dat]
theorem after_in4 (c : Dev nD) (t : Fin cfg0.N) : (dat V c).after 4 t = blockAt V c 4 t := by dsimp only [dat]
theorem after_copy (c : Dev nD) (t : Fin cfg0.N) : (dat V c).after 5 t = copyBlock (blockAt V c 1 t) := by dsimp only [dat]
theorem after_hidden (c : Dev nD) (t : Fin cfg0.N) :
    (dat V c).after 6 t = hiddenBlock (blockAt V c 1 t) (supports V c) (blockAt V c 3 t) (blockAt V c 4 t) := by dsimp only [dat]

theorem before_in0 (c : Dev nD) (t : Fin cfg0.N) (d) : (dat V c).before 0 t d = blockAt V c 0 t :=
  before_in0_of V (dat V c) (A_eq V c 0) (after_in0 V c) t d
theorem before_in1 (c : Dev nD) (t : Fin cfg0.N) (d) : (dat V c).before 1 t d = blockAt V c 1 t :=
  before_in1_of V (dat V c) (A_eq V c 1) (after_in1 V c) t d
theorem before_in2 (c : Dev nD) (t : Fin cfg0.N) (d) : (dat V c).before 2 t d = blockAt V c 2 t :=
  before_in2_of V (dat V c) (A_eq V c 2) (after_in2 V c) t d
theorem before_in3 (c : Dev nD) (t : Fin cfg0.N) (d) : (dat V c).before 3 t d = blockAt V c 3 t :=
  before_in3_of V (dat V c) (A_eq V c 3) (after_in3 V c) t d
theorem before_in4 (c : Dev nD) (t : Fin cfg0.N) (d) : (dat V c).before 4 t d = blockAt V c 4 t :=
  before_in4_of V (dat V c) (A_eq V c 4) (after_in4 V c) t d

/-! ## The body obligation -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

set_option maxHeartbeats 4000000 in
/-- The body at any point. At the first point the invariant hands the scratch over at anything and takes it back at
    the supports the run stored; at a later point it hands it over at the supports and takes it back untouched. The
    inputs' buffers hold their blocks; what the core owes passes through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3, before_in4]
  rw [show (dat V c).owesAt () t.succ = (dat V c).owesAt () t.castSucc from rfl,
    show (dat V c).Φ t.succ = Phi V c (t.val + 1) from rfl,
    show (dat V c).Φ t.castSucc = Phi V c t.val from rfl,
    after_in0, after_in1, after_in2, after_in3, after_in4, after_copy, after_hidden,
    Phi_pos V c (t.val + 1) (Nat.succ_ne_zero _)]
  by_cases h0 : t.val = 0
  · obtain rfl : t = t0 := Fin.ext h0
    rw [Phi_zero V c _ h0, PhiA_eq]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((firstRun c (grid0.coords t0) _ _ _ _ _ _ _ _ _ _ _ _ _ _ _ _ ((isFirst_iff t0).mpr rfl)
      (blockAt V c 0 t0) (blockAt V c 2 t0) (blockAt V c 1 t0) (blockAt V c 3 t0) (blockAt V c 4 t0)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%e8, H8⟩⟩
    isplitl [H8 Hoth Hg]
    · isplitl [H8 Hoth]
      · isplitl [H8]
        · unfold owns; iexists _; isplitr
          swap; · iexact H8
          ipureintro; exact first_scratch_read c _ _ _ _ _ _ _ _ _ _ _ _ _ _ _ _ _ _ _ _ _ _ _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact first_copy_read c _ _ _ _ _ _ _ _ _ _ _ _ _ _ _ _ _ _ _ _ _ _ _ _
    unfold owns; iexists _; isplitr
    swap; · iexact H6
    ipureintro; exact first_hidden_read c _ _ _ _ _ _ _ _ _ _ _ _ _ _ _ _ _ _ _ _ _ _ _ _
  · rw [Phi_pos V c _ h0]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (sound_later c Set.univ (grid0.coords t) _ _ _ _ _ _ _ _ _ _ _ _ _ _ _ _ (fun h => h0 ((isFirst_iff t).mp h))
      (blockAt V c 1 t) (blockAt V c 3 t) (blockAt V c 4 t) (supports V c) _)
    isplitl [H1]; · iexact H1
    isplitl [H3]; · iexact H3
    isplitl [H4]; · iexact H4
    isplitl [H5]; · iexists _; iexact H5
    isplitl [H6]; · iexists _; iexact H6
    isplitl [HS]; · iexact HS
    iintro ⟨H1, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem Phi_in (c : Dev nD) : Pipeline.ΦA spec0 c ⊢ (dat V c).Φ 0 := by
  rw [show (dat V c).Φ 0 = Phi V c 0 from rfl, Phi_zero V c 0 rfl]

/-- After the last point the invariant gives the class's back: what the scratch holds is forgotten. -/
theorem Phi_out (c : Dev nD) : (dat V c).Φ (Fin.last cfg0.N) ⊢ Pipeline.ΦA spec0 c := by
  rw [show (dat V c).Φ (Fin.last cfg0.N) = Phi V c cfg0.N from rfl,
    Phi_pos V c _ (by rw [show cfg0.N = 16 from N_0]; decide), PhiA_eq]
  iintro ⟨⟨HS, Hoth⟩, Hg⟩
  isplitl [HS Hoth]
  · isplitl [HS]; · iexists _; iexact HS
    iexact Hoth
  iexact Hg

end Cert.KernelIdeal.Pass1

end
-- ==== Proof.IdealPass2.lean ====
/-
  The second pass of the two-layer graph convolution, as one region of the program: at grid point t the body
  reads rows 512·t … 512·t+511 of the (copied) adjacency matrix, the whole 8192×16 array of second-layer supports
  and the 1×16 bias row, and stores the 512×16 block of log-softmax rows. Every access is a whole-buffer
  rectangle, the body keeps nothing between points, and its one store covers the output block: what the output
  block holds after the body is one pure function of the three input blocks (`logitsBlock`).
  Stated at any float instance F and at a parameter V, the buffer contents when the region is entered.
-/
import proofs.«126517_g27376121545431_cont_9to1_1572_14_alg».proof.Proof.Gen.KernelIdeal.Launch
import proofs.«126517_g27376121545431_cont_9to1_1572_14_alg».proof.Proof.Gen.KernelIdeal.Skeleton
import proofs.«126517_g27376121545431_cont_9to1_1572_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency window's buffer holds rows 512·t… of the adjacency array at every point. -/
theorem before_adj_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The supports window's buffer holds the whole supports array at every point (fetched once: its index never moves). -/
theorem before_sup_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The bias window's buffer holds the bias row at every point. -/
theorem before_bias_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: each is the whole buffer -/

abbrev rAdj : Rect S512x8192 := Rect.unit (s := S512x8192) ![0, 0] S512x8192.size inb_S512x8192_S512x8192_0_0
abbrev rSup : Rect S8192x16 := Rect.unit (s := S8192x16) ![0, 0] S8192x16.size inb_S8192x16_S8192x16_0_0
abbrev rBias : Rect S1x16 := Rect.unit (s := S1x16) ![0, 0] S1x16.size inb_S1x16_S1x16_0_0
abbrev rOut : Rect S512x16 := Rect.unit (s := S512x16) ![0, 0] S512x16.size inb_S512x16_S512x16_0_0

/-! ## What the body leaves in the output block -/

/-- The output block after the body: its one store, of the log-softmax rows computed from the three input blocks. -/
def logitsBlock (a : Vec F S512x8192 .bf16) (s : Vec F S8192x16 .f32) (b : Vec F S1x16 .f32) : Vec F S512x16 .f32 :=
  View.canon [⟨rOut, k1_pay1 (View.ld a rAdj) (View.ld s rSup) (View.ld b rBias)⟩]

/-- The store is of the whole block, so it covers it. -/
theorem cover_out (p0 : Vec F S512x16 .f32) (y : S512x16.Idx) :
    ∃ pc ∈ ([⟨rOut, p0⟩] : List (View.Piece (Elt F) S512x16 .f32)), y ∈ pc.1.set :=
  View.cover_of_tiled [⟨rOut, p0⟩] S512x16.size (by rfl) y

/-! ## The body's triple -/

set_option maxHeartbeats 1000000 in
/-- On whole buffers — the inputs' at contents a, s, b, the output's at anything — the body runs to its return
    with the inputs' buffers as they were and the output's at `logitsBlock a s b`. -/
theorem sound_pass2 (c : Dev nD) (E : Set ℕ) (i : grid1.Coords)
    (arg1 : Memref sig .tc .vmem S512x8192 .bf16) (harg1 : arg1.IsWhole) (arg2 : Memref sig .tc .vmem S8192x16 .f32) (harg2 : arg2.IsWhole)
    (arg3 : Memref sig .tc .vmem S1x16 .f32) (harg3 : arg3.IsWhole) (arg4 : Memref sig .tc .vmem S512x16 .f32) (harg4 : arg4.IsWhole)
    (a : Vec F S512x8192 .bf16) (s : Vec F S8192x16 .f32) (b : Vec F S1x16 .f32) (K : PUnit → sProp 𝕄) :
    iprop(owns (c : Thread nD τ) arg1 fullShare a ∗ owns (c : Thread nD τ) arg2 fullShare s ∗ owns (c : Thread nD τ) arg3 fullShare b
        ∗ (∃ d, owns (c : Thread nD τ) arg4 fullShare d)
        ∗ (iprop(owns (c : Thread nD τ) arg1 fullShare a ∗ owns (c : Thread nD τ) arg2 fullShare s ∗ owns (c : Thread nD τ) arg3 fullShare b
            ∗ owns (c : Thread nD τ) arg4 fullShare (logitsBlock a s b)) -∗ K ⟨⟩))
      ⊢ wp frame (wpE (defs₀ (F := F)) Variants.none c none) E (cc1__pass2 i arg1 harg1 arg2 harg2 arg3 harg3 arg4 harg4) K := by
  simp only [cc1__pass2_eq_skeleton]; unfold cc1__pass2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The region's proof data -/

/-- The arrays as the region finds them; after the body at point t each input's buffer at its block and the
    output's at `logitsBlock` of the three input blocks; the invariant the scoped rest and the generator register,
    untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => logitsBlock (blockAt V c 0 t) (blockAt V c 1 t) (blockAt V c 2 t)
  Φ _ := Pipeline.ΦA spec1 c
  q _ := fullShare
  owed _ := 0

theorem A_eq (c : Dev nD) (w : Fin cfg1.W) : (dat V c).A w = V c (Pipeline.arrRef spec1 w) := by
  dsimp only [dat]

theorem after_adj (c : Dev nD) (t : Fin cfg1.N) : (dat V c).after 0 t = blockAt V c 0 t := by dsimp only [dat]
theorem after_sup (c : Dev nD) (t : Fin cfg1.N) : (dat V c).after 1 t = blockAt V c 1 t := by dsimp only [dat]
theorem after_bias (c : Dev nD) (t : Fin cfg1.N) : (dat V c).after 2 t = blockAt V c 2 t := by dsimp only [dat]
theorem after_out (c : Dev nD) (t : Fin cfg1.N) :
    (dat V c).after 3 t = logitsBlock (blockAt V c 0 t) (blockAt V c 1 t) (blockAt V c 2 t) := by dsimp only [dat]

theorem before_adj (c : Dev nD) (t : Fin cfg1.N) (d) : (dat V c).before 0 t d = blockAt V c 0 t :=
  before_adj_of V (dat V c) (A_eq V c 0) (after_adj V c) t d
theorem before_sup (c : Dev nD) (t : Fin cfg1.N) (d) : (dat V c).before 1 t d = blockAt V c 1 t :=
  before_sup_of V (dat V c) (A_eq V c 1) (after_sup V c) t d
theorem before_bias (c : Dev nD) (t : Fin cfg1.N) (d) : (dat V c).before 2 t d = blockAt V c 2 t :=
  before_bias_of V (dat V c) (A_eq V c 2) (after_bias V c) t d

/-! ## The body obligation -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the triple applies; the invariant and what the
    core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_sup, before_bias]
  rw [show (dat V c).Φ t.succ = (dat V c).Φ t.castSucc from rfl,
    show (dat V c).owesAt () t.succ = (dat V c).owesAt () t.castSucc from rfl,
    after_adj, after_sup, after_bias, after_out]
  iintro ⟨HΦ, Ho, ⟨%d0, H0⟩, ⟨%d1, H1⟩, ⟨%d2, H2⟩, ⟨%d3, H3⟩⟩
  iapply (sound_pass2 c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Pass2

end
-- ==== Proof.IdealRun.lean ====
/-
  The whole program's run: @main is one stretch of two host reshapes (the bias vectors as rows), the first pass's
  region and the second pass's region. Here: what every unscoped buffer holds between two items, as a fold from the
  launch memory (a host stretch applies its operations; a region leaves its arrays at what its write-backs fold to
  and every other buffer as entered); each argument array read back through the fold to its launch contents; the two
  regions' records over that thread state; and the run — every weakly fair execution of @main terminates, faulting
  nowhere, with every unscoped buffer at the last contents of the fold. The frame and the result's value are read
  off that one run.
-/
import proofs.«126517_g27376121545431_cont_9to1_1572_14_alg».proof.Proof.IdealPass1Data
import proofs.«126517_g27376121545431_cont_9to1_1572_14_alg».proof.Proof.IdealPass2

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents between items -/

/-- Core c's buffers at launch. -/
abbrev Wa : Dev nD → Valuation τ sig (Elt F) := fun c b => m ((c : Dev nD), b)
/-- After the two host reshapes: the first pass's entry contents. -/
abbrev Wb : Dev nD → Valuation τ sig (Elt F) := fun c => StableHlo.after hostOps0 (Wa m c)
abbrev Vb : (c : Dev nD) → (b : Ref sig .tc) → Buf (Elt F) ((c : Thread nD τ).loc b) := fun c b => Wb m c b
/-- After the first pass: its arrays at what the write-backs leave, every other buffer as entered. -/
def Wc (c : Dev nD) : Valuation τ sig (Elt F) :=
  Pipeline.withArrays spec0 c (Wb m c) fun w => (Pass1.dat (Vb m) c).arrAt w cfg0.N
theorem Wc_arr (c : Dev nD) (w : Fin cfg0.W) :
    Wc m c (Proc.devRef .tc (Pipeline.arrRef spec0 w)) = (Pass1.dat (Vb m) c).arrAt w cfg0.N := by
  unfold Wc; exact Pipeline.withArrays_arr spec0 launch0.win.arr_inj c _ _ w
theorem Wc_of_ne (c : Dev nD) (b : Ref sig .tc) (hb : ∀ w, Pipeline.arrRef spec0 w ≠ b) :
    Wc m c (Proc.devRef .tc b) = Wb m c (Proc.devRef .tc b) := by
  unfold Wc; exact Pipeline.withArrays_of_ne spec0 c _ _ b hb
abbrev Vc : (c : Dev nD) → (b : Ref sig .tc) → Buf (Elt F) ((c : Thread nD τ).loc b) := fun c b => Wc m c b
theorem arrs0 (c : Dev nD) (w : Fin cfg0.W) : (Pass1.dat (Vb m) c).arrAt w cfg0.N = Vc m c (Pipeline.arrRef spec0 w) :=
  (Wc_arr m c w).symm
theorem rest0 (c : Dev nD) : ∀ b, b ∉ Finset.univ.image (Pipeline.arrRef spec0) → Vc m c b = Vb m c b :=
  fun b hb => Wc_of_ne m c b fun w e => hb (Finset.mem_image.mpr ⟨w, Finset.mem_univ _, e⟩)
/-- After the second pass: likewise. -/
def Wd (c : Dev nD) : Valuation τ sig (Elt F) :=
  Pipeline.withArrays spec1 c (Wc m c) fun w => (Pass2.dat (Vc m) c).arrAt w cfg1.N
theorem Wd_arr (c : Dev nD) (w : Fin cfg1.W) :
    Wd m c (Proc.devRef .tc (Pipeline.arrRef spec1 w)) = (Pass2.dat (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
abbrev Vd : (c : Dev nD) → (b : Ref sig .tc) → Buf (Elt F) ((c : Thread nD τ).loc b) := fun c b => Wd m c b
theorem arrs1 (c : Dev nD) (w : Fin cfg1.W) : (Pass2.dat (Vc m) c).arrAt w cfg1.N = Vd m c (Pipeline.arrRef spec1 w) :=
  (Wd_arr m c w).symm
theorem rest1 (c : Dev nD) : ∀ b, b ∉ Finset.univ.image (Pipeline.arrRef spec1) → Vd m c b = Vc m c b :=
  fun b hb => Wd_of_ne m c b fun w e => hb (Finset.mem_image.mpr ⟨w, Finset.mem_univ _, e⟩)

/-! ## The arguments end as launched -/

theorem Wd_main_arg0 (c : Dev nD) : Wd m c (Proc.devRef .tc main_arg0) = m ((c : Thread nD τ).loc main_arg0) :=
  calc Wd m c (Proc.devRef .tc main_arg0)
    _ = Wc m c (Proc.devRef .tc main_arg0) := Wd_of_ne m c main_arg0 (by decide)
    _ = Wb m c (Proc.devRef .tc main_arg0) := (Wc_arr m c 0).trans (((Pass1.dat (Vb m) c).arrAt_in 0 rfl _).trans (Pass1.A_eq (Vb m) c 0))
    _ = Wa m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem Wd_main_arg1 (c : Dev nD) : Wd m c (Proc.devRef .tc main_arg1) = m ((c : Thread nD τ).loc main_arg1) :=
  calc Wd m c (Proc.devRef .tc main_arg1)
    _ = Wc m c (Proc.devRef .tc main_arg1) := Wd_of_ne m c main_arg1 (by decide)
    _ = Wb m c (Proc.devRef .tc main_arg1) := (Wc_arr m c 1).trans (((Pass1.dat (Vb m) c).arrAt_in 1 rfl _).trans (Pass1.A_eq (Vb m) c 1))
    _ = Wa m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem Wd_main_arg2 (c : Dev nD) : Wd m c (Proc.devRef .tc main_arg2) = m ((c : Thread nD τ).loc main_arg2) :=
  calc Wd m c (Proc.devRef .tc main_arg2)
    _ = Wc m c (Proc.devRef .tc main_arg2) := Wd_of_ne m c main_arg2 (by decide)
    _ = Wb m c (Proc.devRef .tc main_arg2) := (Wc_arr m c 2).trans (((Pass1.dat (Vb m) c).arrAt_in 2 rfl _).trans (Pass1.A_eq (Vb m) c 2))
    _ = Wa m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem Wd_main_arg3 (c : Dev nD) : Wd m c (Proc.devRef .tc main_arg3) = m ((c : Thread nD τ).loc main_arg3) :=
  calc Wd m c (Proc.devRef .tc main_arg3)
    _ = Wc m c (Proc.devRef .tc main_arg3) := Wd_of_ne m c main_arg3 (by decide)
    _ = Wb m c (Proc.devRef .tc main_arg3) := Wc_of_ne m c main_arg3 (by decide)
    _ = Wa m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem Wd_main_arg4 (c : Dev nD) : Wd m c (Proc.devRef .tc main_arg4) = m ((c : Thread nD τ).loc main_arg4) :=
  calc Wd m c (Proc.devRef .tc main_arg4)
    _ = Wc m c (Proc.devRef .tc main_arg4) := Wd_of_ne m c main_arg4 (by decide)
    _ = Wb m c (Proc.devRef .tc main_arg4) := (Wc_arr m c 4).trans (((Pass1.dat (Vb m) c).arrAt_in 4 rfl _).trans (Pass1.A_eq (Vb m) c 4))
    _ = Wa m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem Wd_main_arg5 (c : Dev nD) : Wd m c (Proc.devRef .tc main_arg5) = m ((c : Thread nD τ).loc main_arg5) :=
  calc Wd m c (Proc.devRef .tc main_arg5)
    _ = Wc m c (Proc.devRef .tc main_arg5) := Wd_of_ne m c main_arg5 (by decide)
    _ = Wb m c (Proc.devRef .tc main_arg5) := Wc_of_ne m c main_arg5 (by decide)
    _ = Wa m c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 2) → (pcfgs (F := F) p).Adm := fun p => (cfgs p).toPCfg_adm
/-- Each region's proof data at its entry contents — a literal match on the pipeline's index. -/
def pdats : (p : Fin 2) → (c : Dev nD) → Dat τ (Elt F) Unit ℕ (UR sig nD τ) ℕ (Pipeline.pin (pcfgs (F := F)) adm p) c
  | ⟨0, _⟩ => fun c => Pass1.dat (Vb m) c
  | ⟨1, _⟩ => fun c => Pass2.dat (Vc m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_alloc_none : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wd m c) ∗ ∃ r, prngReg c r)

/-! ## The regions as segments -/

set_option backward.isDefEq.respectTransparency.types false in
/-- Region 0 over the thread state: entered from every unscoped buffer at the contents before it, left at the contents
    after it. Its arrays are split out of the unscoped buffers and put back at what the write-backs leave; the
    generator register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pass1.body_obligation (Vb m) c).loose
  hwaits := Pipeline.hwaits_of_owed_zero _ _ _ _ L lv 0 fun _ _ => rfl
  pre c := iprop(StableHlo.held (c : Thread nD τ) (Pipeline.ucRefs τ sig) (Wb m c) ∗ R c)
  post c := iprop(StableHlo.held (c : Thread nD τ) (Pipeline.ucRefs τ sig) (Wc m c) ∗ R c)
  X c := iprop(∃ r, prngReg c r)
  Y c := iprop(∃ r, prngReg c r)
  Z c := Pipeline.unscopedRest (Ix := Unit) (Name := ℕ) (U := UR sig nD τ) (Lvl := ℕ) spec0 c (Vb m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄)
        ⊢ (Pass1.dat (Vb m) c).Φ 0 := by
      have h' := Pass1.Phi_in (Vb m) c
      unfold Pipeline.ΦA at h'
      exact h'
    rw [show (pdats m 0 c).Φ 0 = (Pass1.dat (Vb m) c).Φ 0 from rfl]
    iintro ⟨Hp, -, Hr⟩
    iapply h
    isplitl [Hr]; · iexact Hr
    iexact Hp
  hout c := by
    have h : (Pass1.dat (Vb m) c).Φ (Fin.last cfg0.N)
        ⊢ (iprop(Pipeline.scopedRest (Ix := Unit) (Name := ℕ) (U := UR sig nD τ) (Lvl := ℕ) (Val := Elt F) spec0 c ∗ ∃ r, prngReg c r) : sProp 𝕄) := by
      have h' := Pass1.Phi_out (Vb m) c
      unfold Pipeline.ΦA at h'
      exact h'
    rw [Pipeline.ownSems0_none, show (pdats m 0 c).Φ (Fin.last _) = (Pass1.dat (Vb m) c).Φ (Fin.last cfg0.N) from rfl]
    iintro Hinv
    ihave H := h $$ Hinv
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vb m c) (Vc m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the write-backs leave; the
    generator register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pass2.body_obligation (Vc m) c).loose
  hwaits := Pipeline.hwaits_of_owed_zero _ _ _ _ L lv 1 fun _ _ => rfl
  pre c := iprop(StableHlo.held (c : Thread nD τ) (Pipeline.ucRefs τ sig) (Wc m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vc m c) (Vd m c) ((pdats m 1 c).arrAt · cfg1.N) (arrs1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_alloc_none (Wa m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, faulting nowhere,
    and every final state has every unscoped buffer at the fold's last contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wa m c)
        from Pipeline.unscopedBufs_held c (Wa m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd m c b)
    (hfin := fun c s' => by
      iintro ⟨⟨Hh, -⟩, HSI⟩
      unfold StableHlo.held
      imodintro
      iapply (pointsTo_read_all (Pipeline.ucRefs τ sig) (fun b => (((c : Thread nD τ)).1, b)) (Wd m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Wd_main_arg0 m c),
     (h c _ (mem_uc main_arg1 (by decide))).trans (Wd_main_arg1 m c),
     (h c _ (mem_uc main_arg2 (by decide))).trans (Wd_main_arg2 m c),
     (h c _ (mem_uc main_arg3 (by decide))).trans (Wd_main_arg3 m c),
     (h c _ (mem_uc main_arg4 (by decide))).trans (Wd_main_arg4 m c),
     (h c _ (mem_uc main_arg5 (by decide))).trans (Wd_main_arg5 m c)⟩) (run_all m ρ)

/-- The result array ends at what the second pass's write-backs fold to; the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v3) = (Pass2.dat (Vc m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3 (by decide))).trans (Wd_arr m c 3),
     (h c _ (mem_uc main_arg0 (by decide))).trans (Wd_main_arg0 m c),
     (h c _ (mem_uc main_arg1 (by decide))).trans (Wd_main_arg1 m c),
     (h c _ (mem_uc main_arg2 (by decide))).trans (Wd_main_arg2 m c),
     (h c _ (mem_uc main_arg3 (by decide))).trans (Wd_main_arg3 m c),
     (h c _ (mem_uc main_arg4 (by decide))).trans (Wd_main_arg4 m c),
     (h c _ (mem_uc main_arg5 (by decide))).trans (Wd_main_arg5 m c)⟩) (run_all m ρ)

end Cert.KernelIdeal.Run

end
-- ==== Proof.IdealBlocks.lean ====
/-
  The index arithmetic of the two passes' windows. Both grids have sixteen points; at point t a row-block window
  (the adjacency rows, the copied rows, the two 512×16 output blocks) sits at rows 512·t … 512·t+511 of its array,
  all columns, and a whole-array window (x, W1, the bias rows, W2, the second-layer supports) is its array at every
  point. So a row-block window's block entry (p, l) is the array's entry (512·t + p, l), a whole-array window's
  block is the array, and the sixteen output blocks cover the 8192 rows. Stated at any float instance.
-/
import proofs.«126517_g27376121545431_cont_9to1_1572_14_alg».proof.Proof.Gen.KernelIdeal.Launch
import proofs.«126517_g27376121545431_cont_9to1_1572_14_alg».proof.Proof.Gen.KernelIdeal.Points
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The index maps, decided over the grids -/

theorem idx0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block is row 512·t + p of the array. -/
def rowOf0 (t : Fin cfg0.N) (p : Fin 512) : Fin 8192 :=
  ⟨t.val * 512 + p.val, by have ht : t.val < 16 := lt_of_lt_of_eq t.isLt (show cfg0.N = 16 from N_0); have := p.isLt; omega⟩
def rowOf1 (t : Fin cfg1.N) (p : Fin 512) : Fin 8192 :=
  ⟨t.val * 512 + p.val, by have ht : t.val < 16 := lt_of_lt_of_eq t.isLt (show cfg1.N = 16 from N_1); have := p.isLt; omega⟩

/-! ## The first pass's windows -/

/-- The x window's block is the whole array. -/
theorem x_whole (t : Fin cfg0.N) (X : S8192x128.Idx → Elt F (cfg0.win 0).elt) :
    ((cfg0.win 0).blk t).view.read (Elt F) X = X := by
  funext j
  show X (((cfg0.win 0).blk t).view.emb j) = X j
  congr 1
  funext a; apply Fin.ext
  have e := idx0 t
  match a with
  | ⟨0, _⟩ => show win0_0.index t (0 : Fin 2) * 8192 + 1 * (j 0).val = (j 0).val; omega
  | ⟨1, _⟩ => show win0_0.index t (1 : Fin 2) * 128 + 1 * (j 1).val = (j 1).val; omega

/-- The W1 window's block is the whole array. -/
theorem w1_whole (t : Fin cfg0.N) (X : S128x64.Idx → Elt F (cfg0.win 2).elt) :
    ((cfg0.win 2).blk t).view.read (Elt F) X = X := by
  funext j
  show X (((cfg0.win 2).blk t).view.emb j) = X j
  congr 1
  funext a; apply Fin.ext
  have e := idx0 t
  match a with
  | ⟨0, _⟩ => show win0_2.index t (0 : Fin 2) * 128 + 1 * (j 0).val = (j 0).val; omega
  | ⟨1, _⟩ => show win0_2.index t (1 : Fin 2) * 64 + 1 * (j 1).val = (j 1).val; omega

/-- The bias-row window's block is the whole row. -/
theorem b1_whole (t : Fin cfg0.N) (X : S1x64.Idx → Elt F (cfg0.win 3).elt) :
    ((cfg0.win 3).blk t).view.read (Elt F) X = X := by
  funext j
  show X (((cfg0.win 3).blk t).view.emb j) = X j
  congr 1
  funext a; apply Fin.ext
  have e := idx0 t
  match a with
  | ⟨0, _⟩ => show win0_3.index t (0 : Fin 2) * 1 + 1 * (j 0).val = (j 0).val; omega
  | ⟨1, _⟩ => show win0_3.index t (1 : Fin 2) * 64 + 1 * (j 1).val = (j 1).val; omega

/-- The W2 window's block is the whole array. -/
theorem w2_whole (t : Fin cfg0.N) (X : S64x16.Idx → Elt F (cfg0.win 4).elt) :
    ((cfg0.win 4).blk t).view.read (Elt F) X = X := by
  funext j
  show X (((cfg0.win 4).blk t).view.emb j) = X j
  congr 1
  funext a; apply Fin.ext
  have e := idx0 t
  match a with
  | ⟨0, _⟩ => show win0_4.index t (0 : Fin 2) * 64 + 1 * (j 0).val = (j 0).val; omega
  | ⟨1, _⟩ => show win0_4.index t (1 : Fin 2) * 16 + 1 * (j 1).val = (j 1).val; omega

/-- The adjacency window's block entry (p, l) is the array's entry (512·t + p, l). -/
theorem adjRows_apply (t : Fin cfg0.N) (X : S8192x8192.Idx → Elt F (cfg0.win 1).elt) (p : Fin 512) (l : Fin 8192) :
    ((cfg0.win 1).blk t).view.read (Elt F) X (ix2 p l) = X (ix2 (rowOf0 t p) l) := by
  show X (((cfg0.win 1).blk t).view.emb (ix2 p l)) = X (ix2 (rowOf0 t p) l)
  congr 1
  funext a; apply Fin.ext
  have e := idx0 t
  match a with
  | ⟨0, _⟩ => show win0_1.index t (0 : Fin 2) * 512 + 1 * p.val = t.val * 512 + p.val; omega
  | ⟨1, _⟩ => show win0_1.index t (1 : Fin 2) * 8192 + 1 * l.val = l.val; omega

/-- The copied-adjacency window's block entry (p, l) is the array's entry (512·t + p, l). -/
theorem copyRows_apply (t : Fin cfg0.N) (X : S8192x8192.Idx → Elt F (cfg0.win 5).elt) (p : Fin 512) (l : Fin 8192) :
    ((cfg0.win 5).blk t).view.read (Elt F) X (ix2 p l) = X (ix2 (rowOf0 t p) l) := by
  show X (((cfg0.win 5).blk t).view.emb (ix2 p l)) = X (ix2 (rowOf0 t p) l)
  congr 1
  funext a; apply Fin.ext
  have e := idx0 t
  match a with
  | ⟨0, _⟩ => show win0_5.index t (0 : Fin 2) * 512 + 1 * p.val = t.val * 512 + p.val; omega
  | ⟨1, _⟩ => show win0_5.index t (1 : Fin 2) * 8192 + 1 * l.val = l.val; omega

/-- The second-layer-supports window's block entry (p, q) is the array's entry (512·t + p, q). -/
theorem hidRows_apply (t : Fin cfg0.N) (X : S8192x16.Idx → Elt F (cfg0.win 6).elt) (p : Fin 512) (l : Fin 16) :
    ((cfg0.win 6).blk t).view.read (Elt F) X (ix2 p l) = X (ix2 (rowOf0 t p) l) := by
  show X (((cfg0.win 6).blk t).view.emb (ix2 p l)) = X (ix2 (rowOf0 t p) l)
  congr 1
  funext a; apply Fin.ext
  have e := idx0 t
  match a with
  | ⟨0, _⟩ => show win0_6.index t (0 : Fin 2) * 512 + 1 * p.val = t.val * 512 + p.val; omega
  | ⟨1, _⟩ => show win0_6.index t (1 : Fin 2) * 16 + 1 * l.val = l.val; omega

/-- An index of the array is in point t's block of window 5 iff each coordinate is in the block's range on its axis. -/
theorem mem_copy (t : Fin cfg0.N) (i : S8192x8192.Idx) :
    i ∈ ((cfg0.win 5).blk t).view.set ↔ ∀ a : Fin 2, win0_5.index t a * S512x8192.size a ≤ (i a).val ∧ (i a).val < win0_5.index t a * S512x8192.size a + S512x8192.size a := by
  show i ∈ ((View.whole main_v2_0).slice (win0_5.rect t)).set ↔ _
  rw [View.set_slice_whole, Rect.mem_set_unit]
  exact Iff.rfl

/-- Every row lies in the block of the point that is its quotient by 512: the sixteen blocks cover the array. -/
theorem cover_copy (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  refine ⟨⟨(i 0).val / 512, by rw [show cfg0.N = 16 from N_0]; omega⟩, flush0_5 _, ?_⟩
  rw [mem_copy]
  have e := idx0 ⟨(i 0).val / 512, by rw [show cfg0.N = 16 from N_0]; omega⟩
  intro a
  match a with
  | ⟨0, _⟩ => show win0_5.index _ (0 : Fin 2) * 512 ≤ (i 0).val ∧ (i 0).val < win0_5.index _ (0 : Fin 2) * 512 + 512; simp only [] at e; omega
  | ⟨1, _⟩ => show win0_5.index _ (1 : Fin 2) * 8192 ≤ (i 1).val ∧ (i 1).val < win0_5.index _ (1 : Fin 2) * 8192 + 8192; omega

/-- An index of the array is in point t's block of window 6 iff each coordinate is in the block's range on its axis. -/
theorem mem_hid (t : Fin cfg0.N) (i : S8192x16.Idx) :
    i ∈ ((cfg0.win 6).blk t).view.set ↔ ∀ a : Fin 2, win0_6.index t a * S512x16.size a ≤ (i a).val ∧ (i a).val < win0_6.index t a * S512x16.size a + S512x16.size a := by
  show i ∈ ((View.whole main_v2_1).slice (win0_6.rect t)).set ↔ _
  rw [View.set_slice_whole, Rect.mem_set_unit]
  exact Iff.rfl

/-- Every row lies in the block of the point that is its quotient by 512: the sixteen blocks cover the array. -/
theorem cover_hid (i : S8192x16.Idx) :
    ∃ t : Fin cfg0.N, (cfg0.win 6).flush t = true ∧ i ∈ ((cfg0.win 6).blk t).view.set := by
  have hi0 : (i 0).val < 8192 := (i 0).isLt
  have hi1 : (i 1).val < 16 := (i 1).isLt
  refine ⟨⟨(i 0).val / 512, by rw [show cfg0.N = 16 from N_0]; omega⟩, flush0_6 _, ?_⟩
  rw [mem_hid]
  have e := idx0 ⟨(i 0).val / 512, by rw [show cfg0.N = 16 from N_0]; omega⟩
  intro a
  match a with
  | ⟨0, _⟩ => show win0_6.index _ (0 : Fin 2) * 512 ≤ (i 0).val ∧ (i 0).val < win0_6.index _ (0 : Fin 2) * 512 + 512; simp only [] at e; omega
  | ⟨1, _⟩ => show win0_6.index _ (1 : Fin 2) * 16 ≤ (i 1).val ∧ (i 1).val < win0_6.index _ (1 : Fin 2) * 16 + 16; omega

/-! ## The second pass's windows -/

/-- The copied-adjacency window's block entry (p, l) is the array's entry (512·t + p, l). -/
theorem adjRows2_apply (t : Fin cfg1.N) (X : S8192x8192.Idx → Elt F (cfg1.win 0).elt) (p : Fin 512) (l : Fin 8192) :
    ((cfg1.win 0).blk t).view.read (Elt F) X (ix2 p l) = X (ix2 (rowOf1 t p) l) := by
  show X (((cfg1.win 0).blk t).view.emb (ix2 p l)) = X (ix2 (rowOf1 t p) l)
  congr 1
  funext a; apply Fin.ext
  have e := idx1 t
  match a with
  | ⟨0, _⟩ => show win1_0.index t (0 : Fin 2) * 512 + 1 * p.val = t.val * 512 + p.val; omega
  | ⟨1, _⟩ => show win1_0.index t (1 : Fin 2) * 8192 + 1 * l.val = l.val; omega

/-- The second-layer-supports window's block is the whole array. -/
theorem sup_whole (t : Fin cfg1.N) (X : S8192x16.Idx → Elt F (cfg1.win 1).elt) :
    ((cfg1.win 1).blk t).view.read (Elt F) X = X := by
  funext j
  show X (((cfg1.win 1).blk t).view.emb j) = X j
  congr 1
  funext a; apply Fin.ext
  have e := idx1 t
  match a with
  | ⟨0, _⟩ => show win1_1.index t (0 : Fin 2) * 8192 + 1 * (j 0).val = (j 0).val; omega
  | ⟨1, _⟩ => show win1_1.index t (1 : Fin 2) * 16 + 1 * (j 1).val = (j 1).val; omega

/-- The bias-row window's block is the whole row. -/
theorem b2_whole (t : Fin cfg1.N) (X : S1x16.Idx → Elt F (cfg1.win 2).elt) :
    ((cfg1.win 2).blk t).view.read (Elt F) X = X := by
  funext j
  show X (((cfg1.win 2).blk t).view.emb j) = X j
  congr 1
  funext a; apply Fin.ext
  have e := idx1 t
  match a with
  | ⟨0, _⟩ => show win1_2.index t (0 : Fin 2) * 1 + 1 * (j 0).val = (j 0).val; omega
  | ⟨1, _⟩ => show win1_2.index t (1 : Fin 2) * 16 + 1 * (j 1).val = (j 1).val; omega

/-- The result window's block entry (p, q) is the array's entry (512·t + p, q). -/
theorem outRows_apply (t : Fin cfg1.N) (X : S8192x16.Idx → Elt F (cfg1.win 3).elt) (p : Fin 512) (l : Fin 16) :
    ((cfg1.win 3).blk t).view.read (Elt F) X (ix2 p l) = X (ix2 (rowOf1 t p) l) := by
  show X (((cfg1.win 3).blk t).view.emb (ix2 p l)) = X (ix2 (rowOf1 t p) l)
  congr 1
  funext a; apply Fin.ext
  have e := idx1 t
  match a with
  | ⟨0, _⟩ => show win1_3.index t (0 : Fin 2) * 512 + 1 * p.val = t.val * 512 + p.val; omega
  | ⟨1, _⟩ => show win1_3.index t (1 : Fin 2) * 16 + 1 * l.val = l.val; omega

/-- An index of the array is in point t's block of window 3 iff each coordinate is in the block's range on its axis. -/
theorem mem_out (t : Fin cfg1.N) (i : S8192x16.Idx) :
    i ∈ ((cfg1.win 3).blk t).view.set ↔ ∀ a : Fin 2, win1_3.index t a * S512x16.size a ≤ (i a).val ∧ (i a).val < win1_3.index t a * S512x16.size a + S512x16.size a := by
  show i ∈ ((View.whole main_v3).slice (win1_3.rect t)).set ↔ _
  rw [View.set_slice_whole, Rect.mem_set_unit]
  exact Iff.rfl

/-- Every row lies in the block of the point that is its quotient by 512: the sixteen blocks cover the array. -/
theorem cover_out (i : S8192x16.Idx) :
    ∃ t : Fin cfg1.N, (cfg1.win 3).flush t = true ∧ i ∈ ((cfg1.win 3).blk t).view.set := by
  have hi0 : (i 0).val < 8192 := (i 0).isLt
  have hi1 : (i 1).val < 16 := (i 1).isLt
  refine ⟨⟨(i 0).val / 512, by rw [show cfg1.N = 16 from N_1]; omega⟩, flush1_3 _, ?_⟩
  rw [mem_out]
  have e := idx1 ⟨(i 0).val / 512, by rw [show cfg1.N = 16 from N_1]; omega⟩
  intro a
  match a with
  | ⟨0, _⟩ => show win1_3.index _ (0 : Fin 2) * 512 ≤ (i 0).val ∧ (i 0).val < win1_3.index _ (0 : Fin 2) * 512 + 512; simp only [] at e; omega
  | ⟨1, _⟩ => show win1_3.index _ (1 : Fin 2) * 16 ≤ (i 1).val ∧ (i 1).val < win1_3.index _ (1 : Fin 2) * 16 + 16; omega

end Cert.KernelIdeal.Blocks

end
-- ==== Proof.GcnSpec.lean ====
/-
  The mathematics of the two-layer graph convolution with a row-wise log-softmax, on the extended reals, by index.
  No program is imported here. With x the 8192 × 128 features, adj the 8192 × 8192 adjacency, W1 (128 × 64),
  b1 (64), W2 (64 × 16), b2 (16):

    support  = x · W1                                      (8192 × 64)
    hidden r = leaky (adj[r, :] · support + b1) · W2       (one row of the 8192 × 16 array fed to the second layer)
    result r = logSoftmax (adj[r, :] · hidden + b2)        (one row of the 8192 × 16 result)

  Every row of the result depends on the adjacency only through that one row of it, which is why the rows can be
  computed block by block. The biases are plain functions of the column, so that no reshape or broadcast of either
  side shows in these definitions. The float words (zero, the slope 0.2, minus infinity) are kept as words:
  the same word stands on both sides and is never evaluated.
-/
import Idealize.ShloMosaic.PureOps.Ideal
import Idealize.ShloMosaic.Lib.ValueIdx

noncomputable section

open scoped BigOperators

namespace Cert.Gcn

open Idealize.ShloMosaic Idealize.ShloMosaic.ValueIdx

/-- The shapes of the arrays, as literals. -/
abbrev Sh8192x128 : Shape := ⟨2, ![8192, 128]⟩
abbrev Sh8192x8192 : Shape := ⟨2, ![8192, 8192]⟩
abbrev Sh128x64 : Shape := ⟨2, ![128, 64]⟩
abbrev Sh64x16 : Shape := ⟨2, ![64, 16]⟩
abbrev Sh8192x64 : Shape := ⟨2, ![8192, 64]⟩
abbrev Sh8192x16 : Shape := ⟨2, ![8192, 16]⟩

/-- The leaky rectifier with the slope's word kept: h where h > 0, else slope · h. -/
def leaky (h : EReal) : EReal :=
  Scalar.select (Ideal.cmp .ogt h (Ideal.ofBits .f32 0x00000000#32)) h (Ideal.ofBits .f32 0x3E4CCCCD#32 * h)

/-- The maximum of a row of sixteen entries, as the fold of max from the word of minus infinity over the
    sixteen columns: the form both a lane reduction and a host reduction over one axis are read in. -/
def rowMax (h : Fin 16 → EReal) : EReal :=
  (Finset.univ : Finset (Fin 16)).fold max (Ideal.ofBits .f32 0xFF800000#32) h

/-- The fold starts from its initial value, so taking the maximum with that value once more changes nothing
    (whatever the word denotes). -/
theorem max_init_rowMax (h : Fin 16 → EReal) : max (Ideal.ofBits .f32 0xFF800000#32) (rowMax h) = rowMax h :=
  max_eq_right ((Finset.le_fold_max _).mpr (Or.inl le_rfl))

/-- The log-softmax of one row of sixteen entries, spelt (h − m) − log Σ exp (h − m) with m the row's maximum. -/
def logSoftmaxRow (h : Fin 16 → EReal) : Fin 16 → EReal :=
  fun q => (h q - rowMax h) - Ideal.log (∑ k : Fin 16, Ideal.exp (h k - rowMax h))

/-- x · W1: entry (r, c) is the sum over the 128 features. -/
def support (x : Sh8192x128.Idx → EReal) (W1 : Sh128x64.Idx → EReal) : Sh8192x64.Idx → EReal :=
  fun i => ∑ k : Fin 128, x (ix2 (i 0) k) * W1 (ix2 k (i 1))

/-- One row of the first layer's output times W2, from ONE row a of the adjacency: aggregate the support over
    the row, add the bias, rectify, and contract the 64 hidden features with W2. -/
def hiddenRow (a : Fin 8192 → EReal) (S : Sh8192x64.Idx → EReal) (b1 : Fin 64 → EReal) (W2 : Sh64x16.Idx → EReal) :
    Fin 16 → EReal :=
  fun q => ∑ k : Fin 64, leaky ((∑ l : Fin 8192, a l * S (ix2 l k)) + b1 k) * W2 (ix2 k q)

/-- One row of the second layer before the softmax, from one row a of the adjacency. -/
def logitsRow (a : Fin 8192 → EReal) (s2 : Sh8192x16.Idx → EReal) (b2 : Fin 16 → EReal) : Fin 16 → EReal :=
  fun q => (∑ l : Fin 8192, a l * s2 (ix2 l q)) + b2 q

/-- One row of the result, from one row a of the adjacency. -/
def outRow (a : Fin 8192 → EReal) (s2 : Sh8192x16.Idx → EReal) (b2 : Fin 16 → EReal) : Fin 16 → EReal :=
  logSoftmaxRow (logitsRow a s2 b2)

/-- The 8192 × 16 array the second layer aggregates: row r from row r of the adjacency. -/
def hidden (x : Sh8192x128.Idx → EReal) (adj : Sh8192x8192.Idx → EReal) (W1 : Sh128x64.Idx → EReal) (b1 : Fin 64 → EReal)
    (W2 : Sh64x16.Idx → EReal) : Sh8192x16.Idx → EReal :=
  fun i => hiddenRow (fun l => adj (ix2 (i 0) l)) (support x W1) b1 W2 (i 1)

/-- THE RESULT: row r from row r of the adjacency. -/
def G (x : Sh8192x128.Idx → EReal) (adj : Sh8192x8192.Idx → EReal) (W1 : Sh128x64.Idx → EReal) (b1 : Fin 64 → EReal)
    (W2 : Sh64x16.Idx → EReal) (b2 : Fin 16 → EReal) : Sh8192x16.Idx → EReal :=
  fun i => outRow (fun l => adj (ix2 (i 0) l)) (hidden x adj W1 b1 W2) b2 (i 1)

/-- The three arrays at an index given by its coordinates. -/
theorem support_ix2 (x : Sh8192x128.Idx → EReal) (W1 : Sh128x64.Idx → EReal) (r : Fin 8192) (c : Fin 64) :
    support x W1 (ix2 r c) = ∑ k : Fin 128, x (ix2 r k) * W1 (ix2 k c) := rfl
theorem hidden_ix2 (x : Sh8192x128.Idx → EReal) (adj : Sh8192x8192.Idx → EReal) (W1 : Sh128x64.Idx → EReal) (b1 : Fin 64 → EReal)
    (W2 : Sh64x16.Idx → EReal) (r : Fin 8192) (q : Fin 16) :
    hidden x adj W1 b1 W2 (ix2 r q) = hiddenRow (fun l => adj (ix2 r l)) (support x W1) b1 W2 q := rfl
theorem G_ix2 (x : Sh8192x128.Idx → EReal) (adj : Sh8192x8192.Idx → EReal) (W1 : Sh128x64.Idx → EReal) (b1 : Fin 64 → EReal)
    (W2 : Sh64x16.Idx → EReal) (b2 : Fin 16 → EReal) (r : Fin 8192) (q : Fin 16) :
    G x adj W1 b1 W2 b2 (ix2 r q) = outRow (fun l => adj (ix2 r l)) (hidden x adj W1 b1 W2) b2 q := rfl

end Cert.Gcn

end
-- ==== Proof.GcnKernelDots.lean ====
/-
  The kernel's four matrix products read at an entry. At the ideal values a product into a zero accumulator is,
  at entry (p, c), the sum over the contracted axis of the operands' products, with nothing of the hardware's
  chunking or operand formats left: (lhs · rhs)[p, c] = Σ k, lhs[p, k] · rhs[k, c].
  Each proof re-indexes the contraction's one-axis index set by its coordinate and reads the two operand indices
  off the dimension numbers (rows of the left operand, columns of the right one are kept; the left operand's
  second axis and the right operand's first are contracted).
-/
import proofs.«126517_g27376121545431_cont_9to1_1572_14_alg».proof.Proof.Gen.KernelIdeal.Skeleton
import Idealize.ShloMosaic.Lib.ValueIdx
import Idealize.ShloMosaic.PureOps.Ideal.Laws

noncomputable section

open scoped BigOperators

namespace Cert.Gcn

open Cert.KernelIdeal Cert.KernelIdeal.Gen Idealize.ShloMosaic Idealize.ShloMosaic.ValueIdx

/-- The left operand's row is the entry's row … -/
private theorem dot_features_apply_l0 (i : S8192x64.Idx) (q : dot_S8192x128_S128x64_S8192x64_1_0_0_1_n_n.contr.Idx) : (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide),
    dif_pos (show (0 : Fin S8192x128.rank) ∈ dot_S8192x128_S128x64_S8192x64_1_0_0_1_n_n.lhsNonContracting by decide)]
  rfl
/-- … and the right operand's column is the entry's column. -/
private theorem dot_features_apply_r1 (i : S8192x64.Idx) (q : dot_S8192x128_S128x64_S8192x64_1_0_0_1_n_n.contr.Idx) : (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide),
    dif_pos (show (1 : Fin S128x64.rank) ∈ dot_S8192x128_S128x64_S8192x64_1_0_0_1_n_n.rhsNonContracting by decide)]
  rfl
/-- The features times the first weight matrix, at (p, c): the sum over the 128 input features. -/
theorem dot_features_apply (lhs : FVec Ideal S8192x128 .f32) (rhs : FVec Ideal S128x64 .f32) (p : Fin 8192) (c : Fin 64) :
    matmul dot_S8192x128_S128x64_S8192x64_1_0_0_1_n_n none lhs rhs (constant (F := Ideal) S8192x64 .f32 0x00000000#32) (ix2 p c)
      = ∑ k : Fin 128, lhs (ix2 p k) * rhs (ix2 k c) := by
  show FloatOps.matmul dot_S8192x128_S128x64_S8192x64_1_0_0_1_n_n none lhs rhs (constant (F := Ideal) S8192x64 .f32 0x00000000#32) (ix2 p c) = _
  rw [Ideal.matmul_constant_zero_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 p c) ((contrEquiv1 dot_S8192x128_S128x64_S8192x64_1_0_0_1_n_n 128 rfl rfl).symm k) = ix2 p k :=
    funext fun a => Fin.ext (by
      match a with
      | ⟨0, _⟩ => exact dot_features_apply_l0 _ _
      | ⟨1, _⟩ => exact (dot_S8192x128_S128x64_S8192x64_1_0_0_1_n_n.lhsIdx_val_of_single rfl _ _).trans hk)
  have er : dot_S8192x128_S128x64_S8192x64_1_0_0_1_n_n.rhsIdx (ix2 p c) ((contrEquiv1 dot_S8192x128_S128x64_S8192x64_1_0_0_1_n_n 128 rfl rfl).symm k) = ix2 k c :=
    funext fun a => Fin.ext (by
      match a with
      | ⟨0, _⟩ => exact (dot_S8192x128_S128x64_S8192x64_1_0_0_1_n_n.rhsIdx_val_of_single rfl _ _).trans hk
      | ⟨1, _⟩ => exact dot_features_apply_r1 _ _)
  rw [el, er]

/-- The left operand's row is the entry's row … -/
private theorem dot_aggregate64_apply_l0 (i : S512x64.Idx) (q : dot_S512x8192_S8192x64_S512x64_1_0_0_1_n_n.contr.Idx) : (dot_S512x8192_S8192x64_S512x64_1_0_0_1_n_n.lhsIdx i q 0).val = (i 0).val := by
  unfold DotDims.lhsIdx
  rw [dif_neg (show ¬(0 : Fin S512x8192.rank) ∈ dot_S512x8192_S8192x64_S512x64_1_0_0_1_n_n.lhsBatch by decide),
    dif_pos (show (0 : Fin S512x8192.rank) ∈ dot_S512x8192_S8192x64_S512x64_1_0_0_1_n_n.lhsNonContracting by decide)]
  rfl
/-- … and the right operand's column is the entry's column. -/
private theorem dot_aggregate64_apply_r1 (i : S512x64.Idx) (q : dot_S512x8192_S8192x64_S512x64_1_0_0_1_n_n.contr.Idx) : (dot_S512x8192_S8192x64_S512x64_1_0_0_1_n_n.rhsIdx i q 1).val = (i 1).val := by
  unfold DotDims.rhsIdx
  rw [dif_neg (show ¬(1 : Fin S8192x64.rank) ∈ dot_S512x8192_S8192x64_S512x64_1_0_0_1_n_n.rhsBatch by decide),
    dif_pos (show (1 : Fin S8192x64.rank) ∈ dot_S512x8192_S8192x64_S512x64_1_0_0_1_n_n.rhsNonContracting by decide)]
  rfl
/-- A block of 512 adjacency rows times an 8192 × 64 array, at (p, c): the sum over the 8192 nodes. -/
theorem dot_aggregate64_apply (lhs : FVec Ideal S512x8192 .bf16) (rhs : FVec Ideal S8192x64 .bf16) (p : Fin 512) (c : Fin 64) :
    matmul dot_S512x8192_S8192x64_S512x64_1_0_0_1_n_n none lhs rhs (constant (F := Ideal) S512x64 .f32 0x00000000#32) (ix2 p c)
      = ∑ k : Fin 8192, lhs (ix2 p k) * rhs (ix2 k c) := by
  show FloatOps.matmul dot_S512x8192_S8192x64_S512x64_1_0_0_1_n_n none lhs rhs (constant (F := Ideal) S512x64 .f32 0x00000000#32) (ix2 p c) = _
  rw [Ideal.matmul_constant_zero_apply, ← Equiv.sum_comp (contrEquiv1 dot_S512x8192_S8192x64_S512x64_1_0_0_1_n_n 8192 rfl rfl).symm]
  refine Finset.sum_congr rfl fun k _ => ?_
  have hk := contrEquiv1_symm_val dot_S512x8192_S8192x64_S512x64_1_0_0_1_n_n 8192 rfl rfl k
  have el : dot_S512x8192_S8192x64_S512x64_1_0_0_1_n_n.lhsIdx (ix2 p c) ((contrEquiv1 dot_S512x8192_S8192x64_S512x64_1_0_0_1_n_n 8192 rfl rfl).symm k) = ix2 p k :=
    funext fun a => Fin.ext (by
      match a with
      | ⟨0, _⟩ => exact dot_aggregate64_apply_l0 _ _
      | ⟨1, _⟩ => exact (dot_S512x8192_S8192x64_S512x64_1_0_0_1_n_n.lhsIdx_val_of_single rfl _ _).trans hk)
  have er : dot_S512x8192_S8192x64_S512x64_1_0_0_1_n_n.rhsIdx (ix2 p c) ((contrEquiv1 dot_S512x8192_S8192x64_S512x64_1_0_0_1_n_n 8192 rfl rfl).symm k) = ix2 k c :=
    funext fun a => Fin.ext (by
      match a with
      | ⟨0, _⟩ => exact (dot_S512x8192_S8192x64_S512x64_1_0_0_1_n_n.rhsIdx_val_of_single rfl _ _).trans hk
      | ⟨1, _⟩ => exact dot_aggregate64_apply_r1 _ _)
  rw [el, er]

/-- The left operand's row is the entry's row … -/
private theorem dot_classes_apply_l0 (i : S512x16.Idx) (q : dot_S512x64_S64x16_S512x16_1_0_0_1_n_n.contr.Idx) : (dot_S512x64_S64x16_S512x16_1_0_0_1_n_n.lhsIdx i q 0).val = (i 0).val := by
  unfold DotDims.lhsIdx
  rw [dif_neg (show ¬(0 : Fin S512x64.rank) ∈ dot_S512x64_S64x16_S512x16_1_0_0_1_n_n.lhsBatch by decide),
    dif_pos (show (0 : Fin S512x64.rank) ∈ dot_S512x64_S64x16_S512x16_1_0_0_1_n_n.lhsNonContracting by decide)]
  rfl
/-- … and the right operand's column is the entry's column. -/
private theorem dot_classes_apply_r1 (i : S512x16.Idx) (q : dot_S512x64_S64x16_S512x16_1_0_0_1_n_n.contr.Idx) : (dot_S512x64_S64x16_S512x16_1_0_0_1_n_n.rhsIdx i q 1).val = (i 1).val := by
  unfold DotDims.rhsIdx
  rw [dif_neg (show ¬(1 : Fin S64x16.rank) ∈ dot_S512x64_S64x16_S512x16_1_0_0_1_n_n.rhsBatch by decide),
    dif_pos (show (1 : Fin S64x16.rank) ∈ dot_S512x64_S64x16_S512x16_1_0_0_1_n_n.rhsNonContracting by decide)]
  rfl
/-- A block of 512 hidden rows times the second weight matrix, at (p, c): the sum over the 64 hidden features. -/
theorem dot_classes_apply (lhs : FVec Ideal S512x64 .f32) (rhs : FVec Ideal S64x16 .f32) (p : Fin 512) (c : Fin 16) :
    matmul dot_S512x64_S64x16_S512x16_1_0_0_1_n_n none lhs rhs (constant (F := Ideal) S512x16 .f32 0x00000000#32) (ix2 p c)
      = ∑ k : Fin 64, lhs (ix2 p k) * rhs (ix2 k c) := by
  show FloatOps.matmul dot_S512x64_S64x16_S512x16_1_0_0_1_n_n none lhs rhs (constant (F := Ideal) S512x16 .f32 0x00000000#32) (ix2 p c) = _
  rw [Ideal.matmul_constant_zero_apply, ← Equiv.sum_comp (contrEquiv1 dot_S512x64_S64x16_S512x16_1_0_0_1_n_n 64 rfl rfl).symm]
  refine Finset.sum_congr rfl fun k _ => ?_
  have hk := contrEquiv1_symm_val dot_S512x64_S64x16_S512x16_1_0_0_1_n_n 64 rfl rfl k
  have el : dot_S512x64_S64x16_S512x16_1_0_0_1_n_n.lhsIdx (ix2 p c) ((contrEquiv1 dot_S512x64_S64x16_S512x16_1_0_0_1_n_n 64 rfl rfl).symm k) = ix2 p k :=
    funext fun a => Fin.ext (by
      match a with
      | ⟨0, _⟩ => exact dot_classes_apply_l0 _ _
      | ⟨1, _⟩ => exact (dot_S512x64_S64x16_S512x16_1_0_0_1_n_n.lhsIdx_val_of_single rfl _ _).trans hk)
  have er : dot_S512x64_S64x16_S512x16_1_0_0_1_n_n.rhsIdx (ix2 p c) ((contrEquiv1 dot_S512x64_S64x16_S512x16_1_0_0_1_n_n 64 rfl rfl).symm k) = ix2 k c :=
    funext fun a => Fin.ext (by
      match a with
      | ⟨0, _⟩ => exact (dot_S512x64_S64x16_S512x16_1_0_0_1_n_n.rhsIdx_val_of_single rfl _ _).trans hk
      | ⟨1, _⟩ => exact dot_classes_apply_r1 _ _)
  rw [el, er]

/-- The left operand's row is the entry's row … -/
private theorem dot_aggregate16_apply_l0 (i : S512x16.Idx) (q : dot_S512x8192_S8192x16_S512x16_1_0_0_1_n_n.contr.Idx) : (dot_S512x8192_S8192x16_S512x16_1_0_0_1_n_n.lhsIdx i q 0).val = (i 0).val := by
  unfold DotDims.lhsIdx
  rw [dif_neg (show ¬(0 : Fin S512x8192.rank) ∈ dot_S512x8192_S8192x16_S512x16_1_0_0_1_n_n.lhsBatch by decide),
    dif_pos (show (0 : Fin S512x8192.rank) ∈ dot_S512x8192_S8192x16_S512x16_1_0_0_1_n_n.lhsNonContracting by decide)]
  rfl
/-- … and the right operand's column is the entry's column. -/
private theorem dot_aggregate16_apply_r1 (i : S512x16.Idx) (q : dot_S512x8192_S8192x16_S512x16_1_0_0_1_n_n.contr.Idx) : (dot_S512x8192_S8192x16_S512x16_1_0_0_1_n_n.rhsIdx i q 1).val = (i 1).val := by
  unfold DotDims.rhsIdx
  rw [dif_neg (show ¬(1 : Fin S8192x16.rank) ∈ dot_S512x8192_S8192x16_S512x16_1_0_0_1_n_n.rhsBatch by decide),
    dif_pos (show (1 : Fin S8192x16.rank) ∈ dot_S512x8192_S8192x16_S512x16_1_0_0_1_n_n.rhsNonContracting by decide)]
  rfl
/-- A block of 512 adjacency rows times an 8192 × 16 array, at (p, c): the sum over the 8192 nodes. -/
theorem dot_aggregate16_apply (lhs : FVec Ideal S512x8192 .bf16) (rhs : FVec Ideal S8192x16 .bf16) (p : Fin 512) (c : Fin 16) :
    matmul dot_S512x8192_S8192x16_S512x16_1_0_0_1_n_n none lhs rhs (constant (F := Ideal) S512x16 .f32 0x00000000#32) (ix2 p c)
      = ∑ k : Fin 8192, lhs (ix2 p k) * rhs (ix2 k c) := by
  show FloatOps.matmul dot_S512x8192_S8192x16_S512x16_1_0_0_1_n_n none lhs rhs (constant (F := Ideal) S512x16 .f32 0x00000000#32) (ix2 p c) = _
  rw [Ideal.matmul_constant_zero_apply, ← Equiv.sum_comp (contrEquiv1 dot_S512x8192_S8192x16_S512x16_1_0_0_1_n_n 8192 rfl rfl).symm]
  refine Finset.sum_congr rfl fun k _ => ?_
  have hk := contrEquiv1_symm_val dot_S512x8192_S8192x16_S512x16_1_0_0_1_n_n 8192 rfl rfl k
  have el : dot_S512x8192_S8192x16_S512x16_1_0_0_1_n_n.lhsIdx (ix2 p c) ((contrEquiv1 dot_S512x8192_S8192x16_S512x16_1_0_0_1_n_n 8192 rfl rfl).symm k) = ix2 p k :=
    funext fun a => Fin.ext (by
      match a with
      | ⟨0, _⟩ => exact dot_aggregate16_apply_l0 _ _
      | ⟨1, _⟩ => exact (dot_S512x8192_S8192x16_S512x16_1_0_0_1_n_n.lhsIdx_val_of_single rfl _ _).trans hk)
  have er : dot_S512x8192_S8192x16_S512x16_1_0_0_1_n_n.rhsIdx (ix2 p c) ((contrEquiv1 dot_S512x8192_S8192x16_S512x16_1_0_0_1_n_n 8192 rfl rfl).symm k) = ix2 k c :=
    funext fun a => Fin.ext (by
      match a with
      | ⟨0, _⟩ => exact (dot_S512x8192_S8192x16_S512x16_1_0_0_1_n_n.rhsIdx_val_of_single rfl _ _).trans hk
      | ⟨1, _⟩ => exact dot_aggregate16_apply_r1 _ _)
  rw [el, er]

end Cert.Gcn

end
-- ==== Proof.GcnKernelPass1.lean ====
/-
  The first pass's three stored values, read at an entry. The whole-array product stored in the scratch is the
  support x · W1. The copy of the adjacency block through the narrower float format is the block itself (a format
  change is the identity on the extended reals). The block of 512 rows handed to the second pass is, at (p, q), the
  specification's row function of row p of the adjacency block: aggregate the scratch over the row, add the bias
  (a 1 × 64 row broadcast down the block), rectify, contract with W2.
-/
import proofs.«126517_g27376121545431_cont_9to1_1572_14_alg».proof.Proof.Gen.KernelIdeal.Skeleton
import proofs.«126517_g27376121545431_cont_9to1_1572_14_alg».proof.Proof.GcnSpec
import proofs.«126517_g27376121545431_cont_9to1_1572_14_alg».proof.Proof.GcnKernelDots
import Idealize.ShloMosaic.Lib.ValueIdx
import Idealize.ShloMosaic.Lib.ValueLayout
import Idealize.ShloMosaic.Lib.Pipeline.Value

noncomputable section

open scoped BigOperators

namespace Cert.Gcn

open Cert.KernelIdeal Cert.KernelIdeal.Gen Idealize.ShloMosaic Idealize.ShloMosaic.ValueIdx

/-- The scratch holds the support: the first pass's whole-array product is x · W1, entry by entry. -/
theorem pass1_support (x : Vec Ideal S8192x128 .f32) (W1 : Vec Ideal S128x64 .f32) :
    k0_pay1 (F := Ideal) x W1 = support x W1 := by
  funext i
  obtain ⟨r, c, rfl⟩ : ∃ (r : Fin 8192) (c : Fin 64), i = ix2 r c := ⟨i 0, i 1, eq_ix2 i⟩
  unfold k0_pay1
  simp only [shapeCast_self, dot_features_apply, support_ix2]

/-- The adjacency block copied through the narrower format is the block. -/
theorem pass1_copy (v3 : Vec Ideal S512x8192 .f32) : k0_pay2 (F := Ideal) v3 = v3 := rfl

/-- The block handed to the second pass, at (p, q): the row function of row p of the adjacency block. -/
theorem pass1_hidden (v3 : Vec Ideal S512x8192 .f32) (v6 : Vec Ideal S8192x64 .f32) (v9 : Vec Ideal S1x64 .f32)
    (v18 : Vec Ideal S64x16 .f32) (p : Fin 512) (q : Fin 16) :
    k0_pay3 (F := Ideal) v3 v6 v9 v18 (ix2 p q)
      = hiddenRow (fun l => v3 (ix2 p l)) v6 (fun k => v9 (ix2 (0 : Fin 1) k)) v18 q := by
  unfold k0_pay3 k0_pay2 hiddenRow leaky
  simp only [dot_classes_apply, select_apply, cmpf_apply, mulf_apply, addf_apply, broadcast_apply,
    dot_aggregate64_apply, truncf_apply, broadcastTo_1b_ab_apply, shapeCast_self]
  rfl

end Cert.Gcn

end
-- ==== Proof.GcnKernelRow.lean ====
/-
  The row operations of the kernel's second pass, read at an entry, over VARIABLES of the block's shape:
  a lane reduction over the sixteen columns of a 512 × 16 block is, at row p, the sum (or the fold of max)
  over the sixteen entries of that row; a vector of 512 row values cast to a 512 × 1 column and broadcast along
  the columns reads, at (p, q), the value of row p. With these the block's log-softmax, as the operations
  print it, is at (p, q) the log-softmax of row p of its operand, at column q.
-/
import proofs.«126517_g27376121545431_cont_9to1_1572_14_alg».proof.Proof.Gen.KernelIdeal.Skeleton
import proofs.«126517_g27376121545431_cont_9to1_1572_14_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn

open Cert.KernelIdeal Cert.KernelIdeal.Gen Idealize.ShloMosaic Idealize.ShloMosaic.ValueIdx

/-- The reduced index p with the column k put back on the dropped axis is (p, k). -/
theorem lift_row (h : S512x16.Reduces [1] S512) (p : Fin 512) (k : Fin (S512x16.size 1)) :
    h.lift (ix1 p) k = ix2 p (⟨k.val, k.isLt⟩ : Fin 16) := by
  funext c; apply Fin.ext
  match c with
  | ⟨0, _⟩ => rfl
  | ⟨1, _⟩ => rfl

/-- The lane maximum of a 512 × 16 block over its sixteen columns, from the word of minus infinity, in the
    operation's own spelling: one value per row. -/
def rowMaxVec (src : FVec Ideal S512x16 .f32) : FVec Ideal S512 .f32 :=
  multiReduction .maximumf [1] S512 src 0xFF800000#32 reduces_S512x16_S512 (.inl rfl) rfl

/-- The lane sum of a 512 × 16 block over its sixteen columns, from the zero word: one value per row. -/
def rowSumVec (src : FVec Ideal S512x16 .f32) : FVec Ideal S512 .f32 :=
  multiReduction .add [1] S512 src 0x00000000#32 reduces_S512x16_S512 (.inl rfl) rfl

/-- At row p the lane sum is the sum of the row's sixteen entries. -/
theorem rowSumVec_apply (src : FVec Ideal S512x16 .f32) (p : Fin 512) :
    rowSumVec src (ix1 p) = ∑ k : Fin 16, src (ix2 p k) :=
  (Ideal.multiReduction_add_single src 0x00000000#32 reduces_S512x16_S512 (.inl rfl) rfl (ix1 p)).trans
    (Finset.sum_congr rfl fun k _ => congrArg src (lift_row reduces_S512x16_S512 p k))

/-- At row p the lane maximum is the fold of max from the word of minus infinity over the row's entries. -/
theorem rowMaxVec_apply (src : FVec Ideal S512x16 .f32) (p : Fin 512) :
    rowMaxVec src (ix1 p) = rowMax (fun k => src (ix2 p k)) := by
  unfold rowMax
  refine (Ideal.multiReduction_maximumf_single src 0xFF800000#32 reduces_S512x16_S512 (.inl rfl) rfl (ix1 p)).trans ?_
  have hf : (src ∘ (reduces_S512x16_S512 : S512x16.Reduces [1] S512).lift (ix1 p)) = fun k : Fin 16 => src (ix2 p k) :=
    funext fun k => congrArg src (lift_row reduces_S512x16_S512 p k)
  exact congrArg (fun f => Finset.fold max (Ideal.ofBits .f32 0xFF800000#32) f (Finset.univ : Finset (Fin 16))) hf

/-- A vector of 512 entries cast to a 512 × 1 column reads, at (p, u), entry p. -/
theorem castCol_apply {α : Type} (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_two, Shape.rowMajor_val_one]
    show p.val = p.val * 1 + u.val
    omega)

/-- A 512 × 1 column broadcast along the sixteen columns reads, at (p, q), the column's entry p. -/
theorem bcastCol_apply {α : Type} (w : S512x1.Idx → α) (h : S512x1.Broadcasts S512x16) (p : Fin 512) (q : Fin 16) :
    broadcastTo S512x16 w h (ix2 p q) = w (ix2 p (0 : Fin 1)) := by
  refine broadcastTo_apply w h (ix2 p q) (ix2 p (0 : Fin 1)) fun ax => ?_
  match ax with
  | ⟨0, _⟩ =>
    show p.val = if (512 : Nat) = 1 then 0 else p.val
    rw [if_neg (by decide)]
  | ⟨1, _⟩ =>
    show (0 : Nat) = if (1 : Nat) = 1 then 0 else q.val
    rw [if_pos rfl]

/-- The exponential and the logarithm of a vector at an index are those of the element. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The second pass's log-softmax of a 512 × 16 block, in the operations' own spelling: the row maximum kept as a
    column and broadcast, the shifted block, its exponential's row sum kept as a column, the logarithm, and
    (block − maximum) − log-sum. -/
def softmaxBlock (v9 : FVec Ideal S512x16 .f32) : FVec Ideal S512x16 .f32 :=
  have v10 : FVec Ideal S512 .f32 := rowMaxVec v9
  have v11 : FVec Ideal S512x1 .f32 := shapeCast S512x1 v10 shapeCasts_S512_S512x1
  have v12 : FVec Ideal S512x16 .f32 := broadcastTo S512x16 v11 broadcasts_S512x1_S512x16
  have v13 : FVec Ideal S512x16 .f32 := subf v9 v12
  have v14 : FVec Ideal S512x16 .f32 := exp v13
  have v15 : FVec Ideal S512 .f32 := rowSumVec v14
  have v16 : FVec Ideal S512x1 .f32 := shapeCast S512x1 v15 shapeCasts_S512_S512x1
  have v17 : FVec Ideal S512x1 .f32 := log v16
  have v18 : FVec Ideal S512x16 .f32 := broadcastTo S512x16 v11 broadcasts_S512x1_S512x16
  have v19 : FVec Ideal S512x16 .f32 := subf v9 v18
  have v20 : FVec Ideal S512x16 .f32 := broadcastTo S512x16 v17 broadcasts_S512x1_S512x16
  have v21 : FVec Ideal S512x16 .f32 := subf v19 v20
  v21

/-- At (p, q) it is the log-softmax of row p at column q. -/
theorem softmaxBlock_apply (v9 : FVec Ideal S512x16 .f32) (p : Fin 512) (q : Fin 16) :
    softmaxBlock v9 (ix2 p q) = logSoftmaxRow (fun k => v9 (ix2 p k)) q := by
  unfold softmaxBlock logSoftmaxRow
  simp only [subf_apply, exp_apply, log_apply, bcastCol_apply, castCol_apply, rowMaxVec_apply, rowSumVec_apply]

end Cert.Gcn

end
-- ==== Proof.GcnKernelPass2.lean ====
/-
  The second pass's stored value, read at an entry. The block is the log-softmax, row by row, of the logits
  block: the adjacency block (already in the narrower format: the identity on the extended reals) times the whole
  8192 × 16 array, plus the bias (a 1 × 16 row broadcast down the block). At (p, q) this is the specification's row
  function of row p of the adjacency block, at column q.
-/
import proofs.«126517_g27376121545431_cont_9to1_1572_14_alg».proof.Proof.Gen.KernelIdeal.Skeleton
import proofs.«126517_g27376121545431_cont_9to1_1572_14_alg».proof.Proof.GcnSpec
import proofs.«126517_g27376121545431_cont_9to1_1572_14_alg».proof.Proof.GcnKernelDots
import proofs.«126517_g27376121545431_cont_9to1_1572_14_alg».proof.Proof.GcnKernelRow
import Idealize.ShloMosaic.Lib.ValueIdx
import Idealize.ShloMosaic.Lib.ValueLayout
import Idealize.ShloMosaic.Lib.Pipeline.Value

noncomputable section

open scoped BigOperators

namespace Cert.Gcn

open Cert.KernelIdeal Cert.KernelIdeal.Gen Idealize.ShloMosaic Idealize.ShloMosaic.ValueIdx

/-- The logits block in the operations' own spelling: the product into a zero accumulator plus the broadcast bias. -/
def logitsBlock (v0 : Vec Ideal S512x8192 .bf16) (v2 : Vec Ideal S8192x16 .f32) (v6 : Vec Ideal S1x16 .f32) :
    FVec Ideal S512x16 .f32 :=
  have v1 : FVec Ideal S512x8192 .bf16 := shapeCast S512x8192 v0 shapeCasts_S512x8192_S512x8192
  have v3 : FVec Ideal S8192x16 .f32 := shapeCast S8192x16 v2 shapeCasts_S8192x16_S8192x16
  have v4 : FVec Ideal S8192x16 .bf16 := truncf .bf16 v3 bitsLt_bf16_f32
  have cst : FVec Ideal S512x16 .f32 := constant S512x16 .f32 0x00000000#32
  have v5 : FVec Ideal S512x16 .f32 := matmul dot_S512x8192_S8192x16_S512x16_1_0_0_1_n_n none v1 v4 cst
  have v7 : FVec Ideal S1x16 .f32 := shapeCast S1x16 v6 shapeCasts_S1x16_S1x16
  have v8 : FVec Ideal S512x16 .f32 := broadcastTo S512x16 v7 broadcasts_S1x16_S512x16
  addf v5 v8

/-- At (p, q): the aggregate of column q over row p of the adjacency block, plus the bias of column q. -/
theorem logitsBlock_apply (v0 : Vec Ideal S512x8192 .bf16) (v2 : Vec Ideal S8192x16 .f32) (v6 : Vec Ideal S1x16 .f32)
    (p : Fin 512) (q : Fin 16) :
    logitsBlock v0 v2 v6 (ix2 p q) = logitsRow (fun l => v0 (ix2 p l)) v2 (fun k => v6 (ix2 (0 : Fin 1) k)) q := by
  unfold logitsBlock logitsRow
  simp only [addf_apply, dot_aggregate16_apply, shapeCast_self, truncf_apply, broadcastTo_1b_ab_apply]

/-- The stored value is the block's log-softmax of the logits block: the same operations, cut in two. -/
theorem pass2_eq (v0 : Vec Ideal S512x8192 .bf16) (v2 : Vec Ideal S8192x16 .f32) (v6 : Vec Ideal S1x16 .f32) :
    k1_pay1 (F := Ideal) v0 v2 v6 = softmaxBlock (logitsBlock v0 v2 v6) := rfl

/-- The second pass's block at (p, q): the row function of row p of the adjacency block. -/
theorem pass2_out (v0 : Vec Ideal S512x8192 .bf16) (v2 : Vec Ideal S8192x16 .f32) (v6 : Vec Ideal S1x16 .f32)
    (p : Fin 512) (q : Fin 16) :
    k1_pay1 (F := Ideal) v0 v2 v6 (ix2 p q)
      = outRow (fun l => v0 (ix2 p l)) v2 (fun k => v6 (ix2 (0 : Fin 1) k)) q := by
  rw [pass2_eq, softmaxBlock_apply]
  unfold outRow
  exact congrArg (fun h => logSoftmaxRow h q) (funext fun k => logitsBlock_apply v0 v2 v6 p k)

end Cert.Gcn

end
-- ==== Proof.IdealResult.lean ====
/-
  What the idealized kernel's result array holds after the run, as one function of the argument arrays.
  The first pass leaves, in its first output array, the adjacency matrix itself (the copy's change of float format
  is the identity on the extended reals) and, in its second, the second-layer supports: row r of
  leaky(adj·(x·W1) + b1)·W2, every row computed from the same first-layer supports x·W1 the first point stored.
  The second pass reads both and leaves in the result array, row by row, the log-softmax of adj·supports + b2.
  Each array is recovered from what the sixteen grid points write back: point t's block is block t of the
  whole-array function (the body's payload read at an index; the block's rows are rows 512·t … of the arrays), and
  the blocks cover the array.
-/
import proofs.«126517_g27376121545431_cont_9to1_1572_14_alg».proof.Proof.IdealRun
import proofs.«126517_g27376121545431_cont_9to1_1572_14_alg».proof.Proof.IdealBlocks
import proofs.«126517_g27376121545431_cont_9to1_1572_14_alg».proof.Proof.GcnSpec
import proofs.«126517_g27376121545431_cont_9to1_1572_14_alg».proof.Proof.GcnKernelPass1
import proofs.«126517_g27376121545431_cont_9to1_1572_14_alg».proof.Proof.GcnKernelPass2
import Idealize.ShloMosaic.Lib.StableHlo.Run
import Idealize.ShloMosaic.Lib.ValueLayout
import Idealize.ShloMosaic.Lib.Pipeline.Value

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Run Cert.KernelIdeal.Blocks Cert.Gcn

variable (m : (ℓ : Loc nD τ sig) → Buf (Elt Ideal) ℓ) (c : Dev nD)

theorem hz : (![0, 0] : Fin 2 → Nat) = fun _ => 0 := funext fun a => by fin_cases a <;> rfl

/-! ## The first pass's entry contents: the arguments, and the bias vectors as rows -/

theorem entry_main_arg0 : Vb m c main_arg0 = m ((c : Thread nD τ).loc main_arg0) :=
  (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem entry_main_arg1 : Vb m c main_arg1 = m ((c : Thread nD τ).loc main_arg1) :=
  (StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem entry_main_arg2 : Vb m c main_arg2 = m ((c : Thread nD τ).loc main_arg2) :=
  (StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem entry_main_arg4 : Vb m c main_arg4 = m ((c : Thread nD τ).loc main_arg4) :=
  (StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The first bias as a 1×64 row reads the bias vector's entry. -/
theorem entry_b1 (k : Fin 64) :
    (Vb m c main_v0 : S1x64.Idx → EReal) (ix2 (0 : Fin 1) k) = ((m ((c : Thread nD τ).loc main_arg3)) : S64.Idx → EReal) (ix1 k) := by
  have e : (Vb m c main_v0 : S1x64.Idx → EReal) = shapeCast S1x64 ((m ((c : Thread nD τ).loc main_arg3)) : S64.Idx → EReal) shapeCasts_S64_S1x64 := by
    dsimp only [Vb, Wb, Wa, hostOps0]; after_results; rfl
  rw [e]; exact shapeCast_a_1a_apply _ _ _ _

/-- The second bias as a 1×16 row reads the bias vector's entry; the first pass does not touch it. -/
theorem entry_b2 (k : Fin 16) :
    (Vb m c main_v1 : S1x16.Idx → EReal) (ix2 (0 : Fin 1) k) = ((m ((c : Thread nD τ).loc main_arg5)) : S16.Idx → EReal) (ix1 k) := by
  have e : (Vb m c main_v1 : S1x16.Idx → EReal) = shapeCast S1x16 ((m ((c : Thread nD τ).loc main_arg5)) : S16.Idx → EReal) shapeCasts_S16_S1x16 := by
    dsimp only [Vb, Wb, Wa, hostOps0]; after_results; rfl
  rw [e]; exact shapeCast_a_1a_apply _ _ _ _

/-- The bias vectors as functions of the column. -/
abbrev bias1 : Fin 64 → EReal := fun k => ((m ((c : Thread nD τ).loc main_arg3)) : S64.Idx → EReal) (ix1 k)
abbrev bias2 : Fin 16 → EReal := fun k => ((m ((c : Thread nD τ).loc main_arg5)) : S16.Idx → EReal) (ix1 k)

/-! ## The first pass's output arrays -/

/-- The scratch's supports are x·W1 of the argument arrays. -/
theorem supports_eq : Pass1.supports (Vb m) c = support (m ((c : Thread nD τ).loc main_arg0)) (m ((c : Thread nD τ).loc main_arg2)) := by
  unfold Pass1.supports Pass1.supportAll
  rw [View.canon_unit_zero hz]
  simp only [View.ld_unit_zero (S := S8192x128) hz, View.ld_unit_zero (S := S128x64) hz]
  refine (pass1_support _ _).trans ?_
  unfold Pass1.blockAt
  rw [x_whole, w1_whole, entry_main_arg0, entry_main_arg2]

/-- What point t writes back into the copied-adjacency array is block t of the adjacency matrix. -/
theorem copy_flushed (t : Fin cfg0.N) :
    (Pass1.dat (Vb m) c).flushed 5 t = ((cfg0.win 5).blk t).view.read (Elt Ideal) (fun i => (m ((c : Thread nD τ).loc main_arg1)) i) := by
  show (cfg0.win 5).cut (grid0.coords t) ((Pass1.dat (Vb m) c).after 5 t) = _
  rw [Pass1.after_copy]
  unfold Pass1.copyBlock
  rw [View.canon_unit_zero hz]
  simp only [View.ld_unit_zero (S := S512x8192) hz]
  refine (pass1_copy _).trans ?_
  funext j
  obtain ⟨p, l, rfl⟩ : ∃ (p : Fin 512) (l : Fin 8192), j = ix2 p l := ⟨j 0, j 1, eq_ix2 j⟩
  refine Eq.trans ?_ (copyRows_apply (F := Ideal) t (fun i => (m ((c : Thread nD τ).loc main_arg1)) i) p l).symm
  unfold Pass1.blockAt
  refine (adjRows_apply (F := Ideal) t (Vb m c (Pipeline.arrRef spec0 1)) p l).trans ?_
  exact congrFun (entry_main_arg1 m c) (ix2 (rowOf0 t p) l)

/-- So the copied-adjacency array is the adjacency matrix. -/
theorem copy_final : (Pass1.dat (Vb m) c).arrAt 5 cfg0.N = (fun i => (m ((c : Thread nD τ).loc main_arg1)) i) :=
  (Pass1.dat (Vb m) c).arrAt_eq_of_cover 5 _ (fun t _ => copy_flushed m c t) cover_copy

/-- What point t writes back into the second-layer-supports array is block t of `hidden` of the arguments. -/
theorem hid_flushed (t : Fin cfg0.N) :
    (Pass1.dat (Vb m) c).flushed 6 t = ((cfg0.win 6).blk t).view.read (Elt Ideal)
      (hidden (m ((c : Thread nD τ).loc main_arg0)) (m ((c : Thread nD τ).loc main_arg1)) (m ((c : Thread nD τ).loc main_arg2)) (bias1 m c) (m ((c : Thread nD τ).loc main_arg4))) := by
  show (cfg0.win 6).cut (grid0.coords t) ((Pass1.dat (Vb m) c).after 6 t) = _
  rw [Pass1.after_hidden]
  unfold Pass1.hiddenBlock
  rw [View.canon_unit_zero hz]
  simp only [View.ld_unit_zero (S := S512x8192) hz, View.ld_unit_zero (S := S8192x64) hz, View.ld_unit_zero (S := S1x64) hz,
    View.ld_unit_zero (S := S64x16) hz]
  funext j
  obtain ⟨p, q, rfl⟩ : ∃ (p : Fin 512) (q : Fin 16), j = ix2 p q := ⟨j 0, j 1, eq_ix2 j⟩
  refine Eq.trans ?_ (hidRows_apply (F := Ideal) t (hidden (m ((c : Thread nD τ).loc main_arg0)) (m ((c : Thread nD τ).loc main_arg1)) (m ((c : Thread nD τ).loc main_arg2)) (bias1 m c) (m ((c : Thread nD τ).loc main_arg4))) p q).symm
  rw [hidden_ix2]
  refine (pass1_hidden _ _ _ _ p q).trans ?_
  have ha : (fun l : Fin 8192 => Pass1.blockAt (Vb m) c 1 t (ix2 p l)) = fun l => (m ((c : Thread nD τ).loc main_arg1)) (ix2 (rowOf0 t p) l) := by
    funext l; unfold Pass1.blockAt
    refine (adjRows_apply (F := Ideal) t (Vb m c (Pipeline.arrRef spec0 1)) p l).trans ?_
    exact congrFun (entry_main_arg1 m c) (ix2 (rowOf0 t p) l)
  have hb : (fun k : Fin 64 => Pass1.blockAt (Vb m) c 3 t (ix2 (0 : Fin 1) k)) = bias1 m c := by
    funext k; unfold Pass1.blockAt
    rw [b1_whole]; exact entry_b1 m c k
  have hw : Pass1.blockAt (Vb m) c 4 t = (m ((c : Thread nD τ).loc main_arg4)) := by
    unfold Pass1.blockAt; rw [w2_whole, entry_main_arg4]
  rw [ha, hb, hw, supports_eq]

/-- So the second-layer-supports array is `hidden` of the arguments. -/
theorem hid_final : (Pass1.dat (Vb m) c).arrAt 6 cfg0.N
    = hidden (m ((c : Thread nD τ).loc main_arg0)) (m ((c : Thread nD τ).loc main_arg1)) (m ((c : Thread nD τ).loc main_arg2)) (bias1 m c) (m ((c : Thread nD τ).loc main_arg4)) :=
  (Pass1.dat (Vb m) c).arrAt_eq_of_cover 6 _ (fun t _ => hid_flushed m c t) cover_hid

/-! ## The second pass's entry contents -/

theorem entry2_adj : Vc m c main_v2_0 = (fun i => (m ((c : Thread nD τ).loc main_arg1)) i) :=
  (Wc_arr m c 5).trans (copy_final m c)
theorem entry2_hid : Vc m c main_v2_1
    = hidden (m ((c : Thread nD τ).loc main_arg0)) (m ((c : Thread nD τ).loc main_arg1)) (m ((c : Thread nD τ).loc main_arg2)) (bias1 m c) (m ((c : Thread nD τ).loc main_arg4)) :=
  (Wc_arr m c 6).trans (hid_final m c)
theorem entry2_b2 : Vc m c main_v1 = Vb m c main_v1 := Wc_of_ne m c main_v1 (by decide)

/-! ## The result array -/

/-- What point t writes back into the result array is block t of `G` of the arguments. -/
theorem out_flushed (t : Fin cfg1.N) :
    (Pass2.dat (Vc m) c).flushed 3 t = ((cfg1.win 3).blk t).view.read (Elt Ideal)
      (G (m ((c : Thread nD τ).loc main_arg0)) (m ((c : Thread nD τ).loc main_arg1)) (m ((c : Thread nD τ).loc main_arg2)) (bias1 m c) (m ((c : Thread nD τ).loc main_arg4)) (bias2 m c)) := by
  show (cfg1.win 3).cut (grid1.coords t) ((Pass2.dat (Vc m) c).after 3 t) = _
  rw [Pass2.after_out]
  unfold Pass2.logitsBlock
  rw [View.canon_unit_zero hz]
  simp only [View.ld_unit_zero (S := S512x8192) hz, View.ld_unit_zero (S := S8192x16) hz, View.ld_unit_zero (S := S1x16) hz]
  funext j
  obtain ⟨p, q, rfl⟩ : ∃ (p : Fin 512) (q : Fin 16), j = ix2 p q := ⟨j 0, j 1, eq_ix2 j⟩
  refine Eq.trans ?_ (outRows_apply (F := Ideal) t (G (m ((c : Thread nD τ).loc main_arg0)) (m ((c : Thread nD τ).loc main_arg1)) (m ((c : Thread nD τ).loc main_arg2)) (bias1 m c) (m ((c : Thread nD τ).loc main_arg4)) (bias2 m c)) p q).symm
  rw [G_ix2]
  refine (pass2_out _ _ _ p q).trans ?_
  have ha : (fun l : Fin 8192 => Pass2.blockAt (Vc m) c 0 t (ix2 p l)) = fun l => (m ((c : Thread nD τ).loc main_arg1)) (ix2 (rowOf1 t p) l) := by
    funext l; unfold Pass2.blockAt
    refine (adjRows2_apply (F := Ideal) t (Vc m c (Pipeline.arrRef spec1 0)) p l).trans ?_
    exact congrFun (entry2_adj m c) (ix2 (rowOf1 t p) l)
  have hs : Pass2.blockAt (Vc m) c 1 t = hidden (m ((c : Thread nD τ).loc main_arg0)) (m ((c : Thread nD τ).loc main_arg1)) (m ((c : Thread nD τ).loc main_arg2)) (bias1 m c) (m ((c : Thread nD τ).loc main_arg4)) := by
    unfold Pass2.blockAt; rw [sup_whole, entry2_hid]
  have hb : (fun k : Fin 16 => Pass2.blockAt (Vc m) c 2 t (ix2 (0 : Fin 1) k)) = bias2 m c := by
    funext k; unfold Pass2.blockAt
    rw [b2_whole, entry2_b2]; exact entry_b2 m c k
  rw [ha, hs, hb]

/-- So the result array is `G` of the arguments. -/
theorem out_final : (Pass2.dat (Vc m) c).arrAt 3 cfg1.N
    = G (m ((c : Thread nD τ).loc main_arg0)) (m ((c : Thread nD τ).loc main_arg1)) (m ((c : Thread nD τ).loc main_arg2)) (bias1 m c) (m ((c : Thread nD τ).loc main_arg4)) (bias2 m c) :=
  (Pass2.dat (Vc m) c).arrAt_eq_of_cover 3 _ (fun t _ => out_flushed m c t) cover_out

end Cert.KernelIdeal.Result

end
-- ==== Proof.GcnRef.lean ====
/-
  The reference program computes G. Its composed result is read stage by stage at an entry (r, q):
  the first product is the support x · W1; the aggregate over row r of the adjacency plus the bias, rectified and
  contracted with W2, is the row function of the specification; the second aggregate plus its bias is the row of
  logits; the reduce with a maximum body over the sixteen columns is the fold of max from minus infinity over the
  row (and the further maximum with minus infinity that the reference takes changes nothing); the reduce with an add
  body is zero plus the sum over the row. No sum is reordered: every sum on this side is the sum of the
  specification, index by index.
-/
import proofs.«126517_g27376121545431_cont_9to1_1572_14_alg».proof.Proof.RefReadP
import proofs.«126517_g27376121545431_cont_9to1_1572_14_alg».proof.Proof.GcnSpec
import Idealize.ShloMosaic.Lib.ValueIdx
import Idealize.ShloMosaic.PureOps.Ideal.Laws
import Idealize.ShloMosaic.PureOps.Reduce

noncomputable section

open scoped BigOperators

namespace Cert.Gcn

open Cert.ReferenceIdeal Cert.ReferenceIdeal.Gen Cert.ReferenceIdeal.ReadP Idealize.ShloMosaic Idealize.ShloMosaic.ValueIdx

/-- The reference's argument arrays at the ideal values. -/
abbrev RX0 : Type := (⟨S8192x128, .f32⟩ : BufTy).Contents (Elt Ideal)
abbrev RX1 : Type := (⟨S8192x8192, .f32⟩ : BufTy).Contents (Elt Ideal)
abbrev RX2 : Type := (⟨S128x64, .f32⟩ : BufTy).Contents (Elt Ideal)
abbrev RX3 : Type := (⟨S64, .f32⟩ : BufTy).Contents (Elt Ideal)
abbrev RX4 : Type := (⟨S64x16, .f32⟩ : BufTy).Contents (Elt Ideal)
abbrev RX5 : Type := (⟨S16, .f32⟩ : BufTy).Contents (Elt Ideal)

/-- The first product is the support, entry by entry. -/
theorem ref_support (x0 : RX0) (x2 : RX2) : val_main_v0 (F := Ideal) x0 x2 = support x0 x2 := by
  funext i
  obtain ⟨r, c, rfl⟩ : ∃ (r : Fin 8192) (c : Fin 64), i = ix2 r c := ⟨i 0, i 1, eq_ix2 i⟩
  rw [val_main_v0_apply, support_ix2]
  refine Finset.sum_congr rfl fun k _ => ?_
  have hl : lidx_main_v0 (ix2 r c) k = ix2 r k := funext fun a => Fin.ext (by match a with | ⟨0, _⟩ => rfl | ⟨1, _⟩ => rfl)
  have hr : ridx_main_v0 (ix2 r c) k = ix2 k c := funext fun a => Fin.ext (by match a with | ⟨0, _⟩ => rfl | ⟨1, _⟩ => rfl)
  rw [hl, hr]

/-- The first layer before the rectifier, at (r, k): the aggregate of the support over row r of the adjacency, plus
    the bias of column k. -/
theorem ref_preact (x0 : RX0) (x1 : RX1) (x2 : RX2) (x3 : RX3) (r : Fin 8192) (k : Fin 64) :
    val_main_v4 (F := Ideal) x0 x1 x2 x3 (ix2 r k)
      = (∑ l : Fin 8192, x1 (ix2 r l) * support x0 x2 (ix2 l k)) + x3 (ix1 k) := by
  rw [val_main_v4_apply, val_main_v1_apply, val_main_v3_apply, val_main_v2_apply, ref_support]
  have hb : idx_main_v2 (idx_main_v3 (ix2 r k)) = ix1 k := funext fun a => Fin.ext (by match a with | ⟨0, _⟩ => rfl)
  rw [hb]
  show (∑ l : Fin 8192, x1 (lidx_main_v1 (ix2 r k) l) * support x0 x2 (ridx_main_v1 (ix2 r k) l)) + x3 (ix1 k) = _
  refine congrArg (· + x3 (ix1 k)) (Finset.sum_congr rfl fun l _ => ?_)
  have hl : lidx_main_v1 (ix2 r k) l = ix2 r l := funext fun a => Fin.ext (by match a with | ⟨0, _⟩ => rfl | ⟨1, _⟩ => rfl)
  have hr : ridx_main_v1 (ix2 r k) l = ix2 l k := funext fun a => Fin.ext (by match a with | ⟨0, _⟩ => rfl | ⟨1, _⟩ => rfl)
  rw [hl, hr]

/-- The rectified first layer at (r, k). -/
theorem ref_rectified (x0 : RX0) (x1 : RX1) (x2 : RX2) (x3 : RX3) (r : Fin 8192) (k : Fin 64) :
    val_main_v9 (F := Ideal) x0 x1 x2 x3 (ix2 r k)
      = leaky ((∑ l : Fin 8192, x1 (ix2 r l) * support x0 x2 (ix2 l k)) + x3 (ix1 k)) := by
  rw [val_main_v9_apply, val_main_v6_apply, val_main_v8_apply, val_main_v5_apply, val_main_v7_apply,
    val_main_cst_apply, val_main_cst_0_apply, ref_preact]
  rfl

/-- The array the second layer aggregates is the specification's. -/
theorem ref_hidden (x0 : RX0) (x1 : RX1) (x2 : RX2) (x3 : RX3) (x4 : RX4) :
    val_main_v10 (F := Ideal) x0 x1 x2 x3 x4 = hidden x0 x1 x2 (fun k => x3 (ix1 k)) x4 := by
  funext i
  obtain ⟨r, q, rfl⟩ : ∃ (r : Fin 8192) (q : Fin 16), i = ix2 r q := ⟨i 0, i 1, eq_ix2 i⟩
  rw [val_main_v10_apply, hidden_ix2]
  unfold hiddenRow
  refine Finset.sum_congr rfl fun k _ => ?_
  have hl : lidx_main_v10 (ix2 r q) k = ix2 r k := funext fun a => Fin.ext (by match a with | ⟨0, _⟩ => rfl | ⟨1, _⟩ => rfl)
  have hr : ridx_main_v10 (ix2 r q) k = ix2 k q := funext fun a => Fin.ext (by match a with | ⟨0, _⟩ => rfl | ⟨1, _⟩ => rfl)
  rw [hl, hr, ref_rectified]

/-- The second layer before the softmax, at (r, q): the row of logits of the specification. -/
theorem ref_logits (x0 : RX0) (x1 : RX1) (x2 : RX2) (x3 : RX3) (x4 : RX4) (x5 : RX5) (r : Fin 8192) (q : Fin 16) :
    val_main_v14 (F := Ideal) x0 x1 x2 x3 x4 x5 (ix2 r q)
      = logitsRow (fun l => x1 (ix2 r l)) (hidden x0 x1 x2 (fun k => x3 (ix1 k)) x4) (fun k => x5 (ix1 k)) q := by
  rw [val_main_v14_apply, val_main_v11_apply, val_main_v13_apply, val_main_v12_apply, ref_hidden]
  have hb : idx_main_v12 (idx_main_v13 (ix2 r q)) = ix1 q := funext fun a => Fin.ext (by match a with | ⟨0, _⟩ => rfl)
  rw [hb]
  unfold logitsRow
  show (∑ l : Fin 8192, x1 (lidx_main_v11 (ix2 r q) l) * hidden x0 x1 x2 (fun k => x3 (ix1 k)) x4 (ridx_main_v11 (ix2 r q) l)) + x5 (ix1 q) = _
  refine congrArg (· + x5 (ix1 q)) (Finset.sum_congr rfl fun l _ => ?_)
  have hl : lidx_main_v11 (ix2 r q) l = ix2 r l := funext fun a => Fin.ext (by match a with | ⟨0, _⟩ => rfl | ⟨1, _⟩ => rfl)
  have hr : ridx_main_v11 (ix2 r q) l = ix2 l q := funext fun a => Fin.ext (by match a with | ⟨0, _⟩ => rfl | ⟨1, _⟩ => rfl)
  rw [hl, hr]

/-! ## The log-softmax of the reference, row by row -/

/-- The reduced index r with the column k put back on the dropped axis is (r, k). -/
theorem ref_lift_row (h : S8192x16.Reduces [1] S8192) (r : Fin 8192) (k : Fin (S8192x16.size 1)) :
    h.lift (ix1 r) k = ix2 r (⟨k.val, k.isLt⟩ : Fin 16) := by
  funext c; apply Fin.ext
  match c with
  | ⟨0, _⟩ => rfl
  | ⟨1, _⟩ => rfl

/-- The reduce with a maximum body over the sixteen columns, at row r: the fold of max from the word of minus
    infinity over the row of logits. -/
theorem ref_rowMax (x0 : RX0) (x1 : RX1) (x2 : RX2) (x3 : RX3) (x4 : RX4) (x5 : RX5) (r : Fin 8192) :
    val_main_call1_v0 (F := Ideal) x0 x1 x2 x3 x4 x5 (ix1 r)
      = rowMax (fun k => val_main_v14 (F := Ideal) x0 x1 x2 x3 x4 x5 (ix2 r k)) := by
  unfold val_main_call1_v0 rowMax
  generalize val_main_v14 (F := Ideal) x0 x1 x2 x3 x4 x5 = y
  have h : S8192x16.Reduces [1] S8192 := by decide
  refine (Host.reduce_eq_fold_single (α := Ideal .f32) (FloatOps.maximumf (F := Ideal) (φ := .f32))
    (y : S8192x16.Idx → Ideal .f32) (val_main_call1_cst (F := Ideal)) reducesTo_S8192x16_S8192_d1 h h_S_ (ix1 r)).trans ?_
  have hf : (y ∘ h.lift (ix1 r)) = fun k : Fin 16 => y (ix2 r k) := funext fun k => congrArg y (ref_lift_row h r k)
  exact congrArg (fun f => Finset.fold max (Ideal.ofBits .f32 0xFF800000#32) f (Finset.univ : Finset (Fin 16))) hf

/-- The shifted logits at (r, k): the logit minus the row's maximum. The reference takes the maximum of the reduce's
    result with minus infinity once more; the fold already starts there. -/
theorem ref_shifted (x0 : RX0) (x1 : RX1) (x2 : RX2) (x3 : RX3) (x4 : RX4) (x5 : RX5) (r : Fin 8192) (k : Fin 16) :
    val_main_call1_v5 (F := Ideal) x0 x1 x2 x3 x4 x5 (ix2 r k)
      = val_main_v14 (F := Ideal) x0 x1 x2 x3 x4 x5 (ix2 r k)
        - rowMax (fun k' => val_main_v14 (F := Ideal) x0 x1 x2 x3 x4 x5 (ix2 r k')) := by
  rw [val_main_call1_v5_apply, val_main_call1_v4_apply, val_main_call1_v3_apply, val_main_call1_v2_apply,
    val_main_call1_v1_apply, val_main_call1_cst_0_apply]
  have h3 : idx_main_call1_v3 (idx_main_call1_v4 (ix2 r k)) = ix1 r :=
    funext fun a => Fin.ext (by match a with | ⟨0, _⟩ => rfl)
  rw [h3, ref_rowMax]
  simp only [Ideal.subf_def, Ideal.maximumf_def, Ideal.ofBits_def, max_init_rowMax]

/-- The reference's result at (r, q): the log-softmax of the row of logits, at column q. -/
theorem ref_out (x0 : RX0) (x1 : RX1) (x2 : RX2) (x3 : RX3) (x4 : RX4) (x5 : RX5) (r : Fin 8192) (q : Fin 16) :
    val_main_v15 (F := Ideal) x0 x1 x2 x3 x4 x5 (ix2 r q)
      = logSoftmaxRow (fun k => val_main_v14 (F := Ideal) x0 x1 x2 x3 x4 x5 (ix2 r k)) q := by
  rw [val_main_v15_apply, val_main_call1_v10_apply, val_main_call1_v9_apply, val_main_call1_v8_apply,
    val_main_call1_v7_apply, val_main_call1_cst_1_apply, ref_shifted]
  have h8 : idx_main_call1_v8 (idx_main_call1_v10 (ix2 r q)) = ix1 r :=
    funext fun a => Fin.ext (by match a with | ⟨0, _⟩ => rfl)
  rw [h8]
  have hs : (∑ k : Fin 16, val_main_call1_v6 (F := Ideal) x0 x1 x2 x3 x4 x5 (idx_main_call1_v7 (ix1 r) k))
      = ∑ k : Fin 16, Ideal.exp (val_main_v14 (F := Ideal) x0 x1 x2 x3 x4 x5 (ix2 r k)
          - rowMax (fun k' => val_main_v14 (F := Ideal) x0 x1 x2 x3 x4 x5 (ix2 r k'))) :=
    Finset.sum_congr rfl fun k _ => by
      have h7 : idx_main_call1_v7 (ix1 r) k = ix2 r k :=
        funext fun a => Fin.ext (by match a with | ⟨0, _⟩ => rfl | ⟨1, _⟩ => rfl)
      rw [h7, val_main_call1_v6_apply, ref_shifted]
      rfl
  rw [hs]
  unfold logSoftmaxRow
  simp only [Ideal.subf_def, Ideal.hostUnary_log_def, Ideal.ofBits_def, Ideal.ofBits_zero_f32, zero_add]

/-- THE REFERENCE IS G, over variables for the six argument arrays: the two biases enter as functions of the column. -/
theorem ref_eq_G (x0 : RX0) (x1 : RX1) (x2 : RX2) (x3 : RX3) (x4 : RX4) (x5 : RX5) :
    val_main_v15 (F := Ideal) x0 x1 x2 x3 x4 x5 = G x0 x1 x2 (fun k => x3 (ix1 k)) x4 (fun k => x5 (ix1 k)) := by
  funext i
  obtain ⟨r, q, rfl⟩ : ∃ (r : Fin 8192) (q : Fin 16), i = ix2 r q := ⟨i 0, i 1, eq_ix2 i⟩
  rw [ref_out, G_ix2]
  unfold outRow
  exact congrArg (fun h => logSoftmaxRow h q) (funext fun k => ref_logits x0 x1 x2 x3 x4 x5 r k)

/-- The same for the term the reference's run names, over the memory the run starts from. -/
theorem res_eq_G (m : (ℓ : Loc nD τ sig) → Buf (Elt Ideal) ℓ) (c : Dev nD) :
    Cert.ReferenceIdeal.ValueP.res_main_v15 (F := Ideal) m c
      = G (m ((c.tc : Thread nD τ).loc main_arg0)) (m ((c.tc : Thread nD τ).loc main_arg1))
          (m ((c.tc : Thread nD τ).loc main_arg2)) (fun k => (m ((c.tc : Thread nD τ).loc main_arg3) : RX3) (ix1 k))
          (m ((c.tc : Thread nD τ).loc main_arg4)) (fun k => (m ((c.tc : Thread nD τ).loc main_arg5) : RX5) (ix1 k)) := by
  rw [val_main_v15_eq, ref_eq_G]

end Cert.Gcn

end
-- ==== Proof.lean ====
/-
  The proof of `Cert.Claim`: a two-layer graph convolution with a dense 8192×8192 adjacency matrix,
  log_softmax(adj · (leaky(adj · (x·W1) + b1) · W2) + b2), computed by two kernels over sixteen blocks of 512 rows
  against the same expression written with whole-array operations.
  On the extended reals the two programs compute the same function G of the six argument arrays, entry by entry:
  the kernels split the rows into blocks but never split a contracted axis, so every matrix product is the same sum;
  the copy of the adjacency matrix in a narrower float format is the identity; the leaky rectifier and the
  log-softmax are spelt with the same operations and the same literals on both sides. No law beyond the
  definitions of the operations is needed, and the inputs' finiteness is not used.
  The frames: each program's run terminates, faults nowhere and leaves its arguments as launched — for the two
  kernel programs read off the run over their two regions (the first region's body carries the first-layer supports
  in a scratch array from the first grid point on), for the reference off its run as a list of host operations.
  The sanctioned idealization rewrote nothing, so its conjunct is `True`.
-/
import proofs.«126517_g27376121545431_cont_9to1_1572_14_alg».proof.Defs
import proofs.«126517_g27376121545431_cont_9to1_1572_14_alg».proof.Proof.Gen.Kernel
import proofs.«126517_g27376121545431_cont_9to1_1572_14_alg».proof.Proof.Gen.KernelIdeal
import proofs.«126517_g27376121545431_cont_9to1_1572_14_alg».proof.Proof.Gen.ReferenceIdeal
import proofs.«126517_g27376121545431_cont_9to1_1572_14_alg».proof.Proof.Gen.Pre_finite_inputs
import proofs.«126517_g27376121545431_cont_9to1_1572_14_alg».proof.Proof.BitsRun
import proofs.«126517_g27376121545431_cont_9to1_1572_14_alg».proof.Proof.IdealRun
import proofs.«126517_g27376121545431_cont_9to1_1572_14_alg».proof.Proof.IdealResult
import proofs.«126517_g27376121545431_cont_9to1_1572_14_alg».proof.Proof.RefRunP
import proofs.«126517_g27376121545431_cont_9to1_1572_14_alg».proof.Proof.GcnRef
import Idealize.ShloMosaic.Adequacy
import Idealize.ShloMosaic.Init

noncomputable section

namespace Cert.Proof

open Idealize.ShloMosaic Idealize.SL.Sem

/-- The kernel program as printed: it runs and leaves its arguments as launched. -/
theorem frame_kernel : Cert.frame_Kernel := fun m ρ _ => Cert.Kernel.Run.frame m ρ

/-- The same program read on the extended reals. -/
theorem frame_kernel_ideal : Cert.frame_KernelIdeal := fun m ρ _ => Cert.KernelIdeal.Run.frame m ρ

/-- The reference: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the result array at G of the arguments. -/
theorem algebraic : Cert.algebraic_KernelIdeal_ReferenceIdeal := by
  intro m ρ m' ρ' _ hagree
  refine ⟨fun c => Cert.Gcn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.KernelIdeal.Result.bias1 m c) (m ((c.tc : Thread Cert.KernelIdeal.nD Cert.KernelIdeal.τ).loc Cert.KernelIdeal.main_arg4)) (Cert.KernelIdeal.Result.bias2 m c), ?_, ?_⟩
  · exact (θ_run Cert.KernelIdeal.defs _ _).mono
      (fun r h c => ⟨(h c).1.trans (Cert.KernelIdeal.Result.out_final m c), (h c).2⟩)
      (Cert.KernelIdeal.Run.run_result m ρ)
  · refine (θ_run Cert.ReferenceIdeal.defs _ _).mono (fun _ h c => ⟨(h c).1.trans ?_, (h c).2⟩)
      (Cert.ReferenceIdeal.ValueP.run (F := Ideal) m' ρ')
    rw [Cert.Gcn.res_eq_G, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
